-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000 : Shape := ⟨1, ![1200000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  main_v38

def fn_part1 {F : FTy → Type} [FloatOps F] (main_arg5 : FVec F S64x128 .f32) (main_arg6 : FVec F S128x64 .f32) (main_arg7 : FVec F S64 .f32) (main_arg8 : FVec F S128x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1200000 32) (main_arg2 : FVec F S1200000 .f32) (main_arg3 : FVec F S64x128 .f32) (main_arg4 : FVec F S128 .f32) (main_arg5 : FVec F S64x128 .f32) (main_arg6 : FVec F S128x64 .f32) (main_arg7 : FVec F S64 .f32) (main_arg8 : FVec F S128x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x64 : Shape := ⟨2, ![100000, 64]⟩
abbrev S2x1200000 : Shape := ⟨2, ![2, 1200000]⟩
abbrev S1200000 : Shape := ⟨1, ![1200000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1200000 : Shape := ⟨2, ![1, 1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x128 : Shape := ⟨2, ![1, 128]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1x64 : Shape := ⟨2, ![1, 64]⟩

abbrev nBuf : Space → Nat
  | .hbm => 65
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S_, .i32⟩
  | .hbm, ⟨14, _⟩ => ⟨S1200000, .i32⟩
  | .hbm, ⟨15, _⟩ => ⟨S_, .i32⟩
  | .hbm, ⟨16, _⟩ => ⟨S100000, .i32⟩
  | .hbm, ⟨17, _⟩ => ⟨S1200000x1, .i32⟩
  | .hbm, ⟨18, _⟩ => ⟨S100000, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1200000, .i32⟩
  | .hbm, ⟨29, _⟩ => ⟨S1200000, .i1⟩
  | .hbm, ⟨30, _⟩ => ⟨S_, .i32⟩
  | .hbm, ⟨31, _⟩ => ⟨S1200000, .i32⟩
  | .hbm, ⟨32, _⟩ => ⟨S1200000, .i32⟩
  | .hbm, ⟨33, _⟩ => ⟨S1200000, .i32⟩
  | .hbm, ⟨34, _⟩ => ⟨S1200000x1, .i32⟩
  | .hbm, ⟨35, _⟩ => ⟨S1200000x64, .f32⟩
  | .hbm, ⟨36, _⟩ => ⟨S1200000x1, .f32⟩
  | .hbm, ⟨37, _⟩ => ⟨S1200000x64, .f32⟩
  | .hbm, ⟨38, _⟩ => ⟨S1200000x64, .f32⟩
  | .hbm, ⟨39, _⟩ => ⟨S_, .f32⟩
  | .hbm, ⟨40, _⟩ => ⟨S100000x64, .f32⟩
  | .hbm, ⟨41, _⟩ => ⟨S1200000x1, .i32⟩
  | .hbm, ⟨42, _⟩ => ⟨S100000x64, .f32⟩
  | .hbm, ⟨43, _⟩ => ⟨S1x128, .f32⟩
  | .hbm, ⟨44, _⟩ => ⟨S100000x128, .f32⟩
  | .hbm, ⟨45, _⟩ => ⟨S100000x64, .bf16⟩
  | .hbm, ⟨46, _⟩ => ⟨S_, .i32⟩
  | .hbm, ⟨47, _⟩ => ⟨S1200000, .i32⟩
  | .hbm, ⟨48, _⟩ => ⟨S1200000, .i1⟩
  | .hbm, ⟨49, _⟩ => ⟨S_, .i32⟩
  | .hbm, ⟨50, _⟩ => ⟨S1200000, .i32⟩
  | .hbm, ⟨51, _⟩ => ⟨S1200000, .i32⟩
  | .hbm, ⟨52, _⟩ => ⟨S1200000, .i32⟩
  | .hbm, ⟨53, _⟩ => ⟨S1200000x1, .i32⟩
  | .hbm, ⟨54, _⟩ => ⟨S1200000x64, .bf16⟩
  | .hbm, ⟨55, _⟩ => ⟨S1200000x64, .f32⟩
  | .hbm, ⟨56, _⟩ => ⟨S1200000x1, .f32⟩
  | .hbm, ⟨57, _⟩ => ⟨S1200000x64, .f32⟩
  | .hbm, ⟨58, _⟩ => ⟨S1200000x64, .f32⟩
  | .hbm, ⟨59, _⟩ => ⟨S_, .f32⟩
  | .hbm, ⟨60, _⟩ => ⟨S100000x64, .f32⟩
  | .hbm, ⟨61, _⟩ => ⟨S1200000x1, .i32⟩
  | .hbm, ⟨62, _⟩ => ⟨S100000x64, .f32⟩
  | .hbm, ⟨63, _⟩ => ⟨S1x64, .f32⟩
  | .hbm, ⟨64, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x128, .f32⟩
  | .local _ .vmem, ⟨7, _⟩ => ⟨S1x128, .f32⟩
  | .local _ .vmem, ⟨8, _⟩ => ⟨S64x128, .f32⟩
  | .local _ .vmem, ⟨9, _⟩ => ⟨S128x64, .f32⟩
  | .local _ .vmem, ⟨10, _⟩ => ⟨S5000x128, .f32⟩
  | .local _ .vmem, ⟨11, _⟩ => ⟨S5000x128, .f32⟩
  | .local _ .vmem, ⟨12, _⟩ => ⟨S5000x64, .bf16⟩
  | .local _ .vmem, ⟨13, _⟩ => ⟨S5000x64, .bf16⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | .local _ .vmem, ⟨20, _⟩ => ⟨S1x64, .f32⟩
  | .local _ .vmem, ⟨21, _⟩ => ⟨S128x64, .f32⟩
  | .local _ .vmem, ⟨22, _⟩ => ⟨S5000x64, .f32⟩
  | .local _ .vmem, ⟨23, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28_0 : Ref sig .tc := ⟨.hbm, 44, rfl⟩
abbrev main_v28_1 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S100000_S100000x1 : S100000.ShapeCasts S100000x1
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  packedbf16_S5000x64_S5000x64_0_0 : (Rect.unit (s := S5000x64) ![0, 0] S5000x64.size inb_S5000x64_S5000x64_0_0).PackedRows (EltTy.packing .bf16)
  shapeCasts_S64_S1x64 : S64.ShapeCasts S1x64
  shapeCasts_S5000x128_S5000x128 : S5000x128.ShapeCasts S5000x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S100000x64.size a
  hwx0_8 : ∀ i : grid0.Coords, EltTy.bits .bf16 = 32 ∨ (Rect.block (s := S100000x64) S5000x64.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v26) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v28_1) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28_0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000 : Shape := ⟨1, ![1200000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1200000 : Shape := ⟨2, ![1, 1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1200000x128 : Shape := ⟨2, ![1200000, 128]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S_, .i32⟩
  | .hbm, ⟨14, _⟩ => ⟨S1200000, .i32⟩
  | .hbm, ⟨15, _⟩ => ⟨S1200000, .i1⟩
  | .hbm, ⟨16, _⟩ => ⟨S_, .i32⟩
  | .hbm, ⟨17, _⟩ => ⟨S1200000, .i32⟩
  | .hbm, ⟨18, _⟩ => ⟨S1200000, .i32⟩
  | .hbm, ⟨19, _⟩ => ⟨S1200000, .i32⟩
  | .hbm, ⟨20, _⟩ => ⟨S1200000x1, .i32⟩
  | .hbm, ⟨21, _⟩ => ⟨S1200000x64, .f32⟩
  | .hbm, ⟨22, _⟩ => ⟨S1200000x1, .f32⟩
  | .hbm, ⟨23, _⟩ => ⟨S1200000x64, .f32⟩
  | .hbm, ⟨24, _⟩ => ⟨S1200000x64, .f32⟩
  | .hbm, ⟨25, _⟩ => ⟨S_, .f32⟩
  | .hbm, ⟨26, _⟩ => ⟨S100000x64, .f32⟩
  | .hbm, ⟨27, _⟩ => ⟨S1200000x1, .i32⟩
  | .hbm, ⟨28, _⟩ => ⟨S100000x64, .f32⟩
  | .hbm, ⟨29, _⟩ => ⟨S_, .f32⟩
  | .hbm, ⟨30, _⟩ => ⟨S1200000, .f32⟩
  | .hbm, ⟨31, _⟩ => ⟨S_, .f32⟩
  | .hbm, ⟨32, _⟩ => ⟨S100000, .f32⟩
  | .hbm, ⟨33, _⟩ => ⟨S1200000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1200000, .i32⟩
  | .hbm, ⟨52, _⟩ => ⟨S1200000, .i1⟩
  | .hbm, ⟨53, _⟩ => ⟨S_, .i32⟩
  | .hbm, ⟨54, _⟩ => ⟨S1200000, .i32⟩
  | .hbm, ⟨55, _⟩ => ⟨S1200000, .i32⟩
  | .hbm, ⟨56, _⟩ => ⟨S1200000, .i32⟩
  | .hbm, ⟨57, _⟩ => ⟨S1200000x1, .i32⟩
  | .hbm, ⟨58, _⟩ => ⟨S1200000x128, .f32⟩
  | .hbm, ⟨59, _⟩ => ⟨S1200000x1, .f32⟩
  | .hbm, ⟨60, _⟩ => ⟨S1200000x128, .f32⟩
  | .hbm, ⟨61, _⟩ => ⟨S1200000x128, .f32⟩
  | .hbm, ⟨62, _⟩ => ⟨S_, .f32⟩
  | .hbm, ⟨63, _⟩ => ⟨S100000x128, .f32⟩
  | .hbm, ⟨64, _⟩ => ⟨S1200000x1, .i32⟩
  | .hbm, ⟨65, _⟩ => ⟨S100000x128, .f32⟩
  | .hbm, ⟨66, _⟩ => ⟨S_, .f32⟩
  | .hbm, ⟨67, _⟩ => ⟨S1200000, .f32⟩
  | .hbm, ⟨68, _⟩ => ⟨S_, .f32⟩
  | .hbm, ⟨69, _⟩ => ⟨S100000, .f32⟩
  | .hbm, ⟨70, _⟩ => ⟨S1200000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_cst : Ref sig .tc := ⟨.hbm, 47, rfl⟩
abbrev main_call0_v0 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1200000x1_S1200000x128_0_1 : S1200000x1.BroadcastsInDim S1200000x128 (![0, 1] : Fin 2 → Fin S1200000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x128_S100000x128_1_0_0_1_n_n_wf : DotDims.WF S100000x64 S64x128 S100000x128 [1] [0] [0] [1] [] []
  gather_S100000x128_S1200000x1_S1200000x128_1_0_n_n_0_1_1128_wf : GatherDims.WF S100000x128 S1200000x1 S1200000x128 [1] [0] [] [0] [] 1 ![1, 128]
  scatter_S100000x128_S1200000x1_S1200000x128_1_0_0_1_wf : ScatterDims.WF S100000x128 S1200000x1 S1200000x128 [1] [0] [0] 1
  dot_S100000x128_S128x64_S100000x64_1_0_0_1_n_n_wf : DotDims.WF S100000x128 S128x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel program's run with its RESULT named. The program is four segments: host operations, the first
  pallas region (layer 1), host operations, the second region (layer 2). The buffer contents at each boundary are a fold
  from the launch memory (W0 … W4 of the generated frame); the run ends with every unscoped buffer at the last boundary's
  contents W4, so the result buffer holds W4 at its reference, and the argument arrays are as launched.
-/
import proofs.«117206_j90477781058261_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last boundary's
    contents `W4` read at its reference, and the nine argument arrays end as launched. -/
theorem run_result : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.KRun

end
-- ==== Proof.Host0.lean ====
/-
  What the first region finds in its operand buffers. The host operations before it compute, from the arguments: the
  raw layer-1 aggregate (each edge's source row, clamped into range, times the edge weight, summed into the edge's
  destination row; an out-of-range destination drops the edge) — the very operations the reference performs, so it is the
  reference's stage of that name —; the reciprocal of the degree, the degree counted in 32-bit integers; and the bias as a
  row. The argument arrays are read as launched.
-/
import proofs.«117206_j90477781058261_2_alg».proof.Proof.Gen.KernelIdeal.Frame
import proofs.«117206_j90477781058261_2_alg».proof.Proof.Gen.ReferenceIdeal.Read
import Idealize.ShloMosaic.Lib.StableHlo.Run
import Idealize.ShloMosaic.PureOps.Ideal
import Idealize.ShloMosaic.Lib.ValueIdx

set_option maxRecDepth 16384

noncomputable section

namespace Cert.KernelIdeal.Host0

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The reciprocal of the degree as the program computes it: the destinations' multiplicities counted by adding
    32-bit ones, converted, raised to at least one, and divided into one; as a column. -/
def invDeg (x1 : (⟨S2x1200000, .i32⟩ : BufTy).Contents (Elt Ideal)) : (⟨S100000x1, .f32⟩ : BufTy).Contents (Elt Ideal) :=
  shapeCast S100000x1
    (Host.divf (F := Ideal) (broadcastInDim S100000 ![] bcast_S_S100000 (constant (F := Ideal) S_ .f32 0x3F800000#32))
      (maximumf
        (sitofp .f32
          (Host.scatter scatter_S100000_S1200000x1_S1200000_n_0_0_1 IntOp.addi
            (broadcastInDim S100000 ![] bcast_S_S100000 (constantI S_ 32 0#32))
            (Cert.ReferenceIdeal.Read.val_main_v19 (F := Ideal) x1)
            (broadcastInDim S1200000 ![] bcast_S_S1200000 (constantI S_ 32 1#32))))
        (broadcastInDim S100000 ![] bcast_S_S100000 (constant (F := Ideal) S_ .f32 0x3F800000#32))))
    shapeCasts_S100000_S100000x1

set_option maxHeartbeats 4000000 in
/-- The raw layer-1 aggregate is the reference's. -/
theorem agg (c : Dev nD) :
    (V1 m ρ c main_v26 : S100000x64.Idx → EReal)
      = Cert.ReferenceIdeal.Read.val_main_v16 (F := Ideal) (m ((c.tc : Thread nD τ).loc main_arg0)) (m ((c.tc : Thread nD τ).loc main_arg1))
          (m ((c.tc : Thread nD τ).loc main_arg2)) := by
  dsimp only [V1, W1, W0, hostOps0]
  after_results_simp
  rfl

/-- The reciprocal degree column. -/
theorem inv (c : Dev nD) :
    (V1 m ρ c main_v13 : S100000x1.Idx → EReal) = invDeg (m ((c.tc : Thread nD τ).loc main_arg1)) := by
  dsimp only [V1, W1, W0, hostOps0]
  after_results
  rfl

/-- The first bias as a row. -/
theorem bias (c : Dev nD) :
    (V1 m ρ c main_v27 : S1x128.Idx → EReal) = shapeCast S1x128 (m ((c.tc : Thread nD τ).loc main_arg4)) shapeCasts_S128_S1x128 := by
  dsimp only [V1, W1, W0, hostOps0]
  after_results
  rfl

/-- The node features, as launched. -/
theorem arg0 (c : Dev nD) : (V1 m ρ c main_arg0 : S100000x64.Idx → EReal) = m ((c.tc : Thread nD τ).loc main_arg0) := by
  dsimp only [V1, W1, W0, hostOps0]
  after_results
/-- The first layer's neighbour weights, as launched. -/
theorem arg3 (c : Dev nD) : (V1 m ρ c main_arg3 : S64x128.Idx → EReal) = m ((c.tc : Thread nD τ).loc main_arg3) := by
  dsimp only [V1, W1, W0, hostOps0]
  after_results
/-- The first layer's root weights, as launched. -/
theorem arg5 (c : Dev nD) : (V1 m ρ c main_arg5 : S64x128.Idx → EReal) = m ((c.tc : Thread nD τ).loc main_arg5) := by
  dsimp only [V1, W1, W0, hostOps0]
  after_results
/-- The second layer's neighbour weights, as launched. -/
theorem arg6 (c : Dev nD) : (V1 m ρ c main_arg6 : S128x64.Idx → EReal) = m ((c.tc : Thread nD τ).loc main_arg6) := by
  dsimp only [V1, W1, W0, hostOps0]
  after_results

end Cert.KernelIdeal.Host0

end
-- ==== Proof.SageRows.lean ====
/-
  One row of a GraphSAGE layer, on the extended reals.

  A node's hidden row is the rectified sum of two projections and a bias: the node's aggregated neighbour features, scaled
  by the reciprocal of its degree, through the neighbour weights; the node's own features through the root weights; the
  bias. The second layer's row is the same shape without the rectifier, except that the aggregated term arrives already
  projected (the projection through the neighbour weights is linear, so it may be applied to every node's hidden row
  before the rows are gathered along the edges and summed).
-/
import Idealize.ShloMosaic.PureOps.Ideal
import Idealize.ShloMosaic.Lib.ValueIdx

noncomputable section

namespace Cert.Sage

open Idealize.ShloMosaic Idealize.ShloMosaic.ValueIdx

/-- The hidden row of a node: `max (((a · iv) Wl + x Wr) + b) 0`, entry `k` of 128, from the node's raw aggregate row `a`
    (64 entries), the reciprocal `iv` of its degree, its own feature row `x`, the two 64×128 weight matrices and the
    bias row. -/
def hiddenRow (a : Fin 64 → EReal) (iv : EReal) (x : Fin 64 → EReal) (Wl Wr : (⟨2, ![64, 128]⟩ : Shape).Idx → EReal)
    (b : (⟨2, ![1, 128]⟩ : Shape).Idx → EReal) (k : Fin 128) : EReal :=
  max (((∑ c : Fin 64, (a c * iv) * Wl (ix2 c k)) + ∑ c : Fin 64, x c * Wr (ix2 c k)) + b (ix2 0 k)) 0

/-- A hidden row through a 128×64 weight matrix: entry `j` of 64. -/
def projRow (h : Fin 128 → EReal) (W : (⟨2, ![128, 64]⟩ : Shape).Idx → EReal) (j : Fin 64) : EReal :=
  ∑ k : Fin 128, h k * W (ix2 k j)

/-- The output row of a node: `(h Wr + a · iv) + b`, entry `j` of 64, from its hidden row `h`, the root weights, the
    already projected raw aggregate entry `a`, the reciprocal `iv` of its degree and the bias row. -/
def outRow (h : Fin 128 → EReal) (Wr : (⟨2, ![128, 64]⟩ : Shape).Idx → EReal) (a iv : EReal)
    (b : (⟨2, ![1, 64]⟩ : Shape).Idx → EReal) (j : Fin 64) : EReal :=
  (projRow h Wr j + a * iv) + b (ix2 0 j)

end Cert.Sage

end
-- ==== Proof.Payloads.lean ====
/-
  The two kernel bodies' arithmetic read at an index. Each body loads whole blocks (5000 rows of each row-blocked operand,
  the weight matrices and the bias row whole) and stores one value per output block; at row `p` and column `q` of the
  block that value is the row function of SageRows applied to row `p` of the loaded blocks. A matrix product into a
  zero accumulator is the plain sum over the contracted axis; the changes of float format are the identity.
-/
import proofs.«117206_j90477781058261_2_alg».proof.Proof.Gen.KernelIdeal.Skeleton
import proofs.«117206_j90477781058261_2_alg».proof.Proof.SageRows
import Idealize.ShloMosaic.PureOps.Ideal.Laws
import Idealize.ShloMosaic.Lib.Pipeline.Value
import Idealize.ShloMosaic.Lib.ValueIdx

noncomputable section

namespace Cert.KernelIdeal.Pay

open Cert.KernelIdeal Cert.KernelIdeal.Gen Cert.Sage
open Idealize.ShloMosaic Idealize.ShloMosaic.ValueIdx

/-- The left operand's index of `dot_S5000x64_S64x128_S5000x128_1_0_0_1_n_n` at output index `i` and contraction index `q`: row `i 0`. -/
theorem d64_l0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- … and column: the contraction position. -/
theorem d64_l1 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
/-- The right operand's row: the contraction position … -/
theorem d64_r0 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
/-- … and column `i 1`. -/
theorem d64_r1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The 5000×64 by 64×128 product into a zero accumulator, at row `p` and column `q`: the sum over the 64 contracted
    positions. -/
theorem mm_64_128 {φ₁ φ₂ : FTy} (l : FVec Ideal S5000x64 φ₁) (r : FVec Ideal S64x128 φ₂) (p : Fin 5000) (q : Fin 128) :
    matmul dot_S5000x64_S64x128_S5000x128_1_0_0_1_n_n none l r (constant S5000x128 .f32 0x00000000#32) (ix2 p q)
      = ∑ c : Fin 64, l (ix2 p c) * r (ix2 c q) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact d64_l0 _ _
    | ⟨1, _⟩ => exact (d64_l1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (d64_r0 _ _).trans hk
    | ⟨1, _⟩ => exact d64_r1 _ _)
  rw [el, er]

/-- The left operand's index of `dot_S5000x128_S128x64_S5000x64_1_0_0_1_n_n` at output index `i` and contraction index `q`: row `i 0`. -/
theorem d128_l0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and column: the contraction position. -/
theorem d128_l1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row: the contraction position … -/
theorem d128_r0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
/-- … and column `i 1`. -/
theorem d128_r1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The 5000×128 by 128×64 product into a zero accumulator, at row `p` and column `q`: the sum over the 128 contracted
    positions. -/
theorem mm_128_64 {φ₁ φ₂ : FTy} (l : FVec Ideal S5000x128 φ₁) (r : FVec Ideal S128x64 φ₂) (p : Fin 5000) (q : Fin 64) :
    matmul dot_S5000x128_S128x64_S5000x64_1_0_0_1_n_n none l r (constant S5000x64 .f32 0x00000000#32) (ix2 p q)
      = ∑ c : Fin 128, l (ix2 p c) * r (ix2 c q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact d128_l0 _ _
    | ⟨1, _⟩ => exact (d128_l1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (d128_r0 _ _).trans hk
    | ⟨1, _⟩ => exact d128_r1 _ _)
  rw [el, er]

/-- A column of 5000 entries broadcast along 64 lanes, at row `p`: the column's entry `p`. -/
theorem bcast_col64 (v : FVec Ideal S5000x1 .f32) (p : Fin 5000) (c : Fin 64) :
    broadcastTo S5000x64 v broadcasts_S5000x1_S5000x64 (ix2 p c) = v (ix2 p 0) :=
  broadcastTo_apply v broadcasts_S5000x1_S5000x64 (ix2 p c) (ix2 p 0) (fun a => by
    match a with
    | ⟨0, _⟩ => rfl
    | ⟨1, _⟩ => rfl)

/-- A row of 128 entries broadcast down 5000 rows, at column `q`: the row's entry `q`. -/
theorem bcast_row128 (v : FVec Ideal S1x128 .f32) (p : Fin 5000) (q : Fin 128) :
    broadcastTo S5000x128 v broadcasts_S1x128_S5000x128 (ix2 p q) = v (ix2 0 q) :=
  broadcastTo_apply v broadcasts_S1x128_S5000x128 (ix2 p q) (ix2 0 q) (fun a => by
    match a with
    | ⟨0, _⟩ => rfl
    | ⟨1, _⟩ => rfl)

/-- A row of 64 entries broadcast down 5000 rows, at column `j`: the row's entry `j`. -/
theorem bcast_row64 (v : FVec Ideal S1x64 .f32) (p : Fin 5000) (j : Fin 64) :
    broadcastTo S5000x64 v broadcasts_S1x64_S5000x64 (ix2 p j) = v (ix2 0 j) :=
  broadcastTo_apply v broadcasts_S1x64_S5000x64 (ix2 p j) (ix2 0 j) (fun a => by
    match a with
    | ⟨0, _⟩ => rfl
    | ⟨1, _⟩ => rfl)

/-- LAYER 1, the hidden block: at row `p`, column `q` the stored value is the hidden row of the node in row `p`. -/
theorem pay_hidden (v0 : Vec Ideal S5000x64 .f32) (v2 : Vec Ideal S5000x1 .f32) (v7 : Vec Ideal S5000x64 .f32)
    (v9 v11 : Vec Ideal S64x128 .f32) (v16 : Vec Ideal S1x128 .f32) (p : Fin 5000) (q : Fin 128) :
    k0_pay1 (F := Ideal) v0 v2 v7 v9 v11 v16 (ix2 p q)
      = hiddenRow (fun c => v0 (ix2 p c)) (v2 (ix2 p 0)) (fun c => v7 (ix2 p c)) v9 v11 v16 q := by
  unfold k0_pay1 hiddenRow
  simp only [shapeCast_self]
  rw [maximumf_apply, addf_apply, addf_apply, mm_64_128, mm_64_128, bcast_row128, broadcast_apply]
  simp only [truncf_apply, mulf_apply, bcast_col64]
  exact congrArg (max _) Ideal.ofBits_zero_f32

/-- LAYER 1, the projected block: at row `p`, column `j` the stored value is the hidden row of the node in row `p`
    through the second layer's neighbour weights. -/
theorem pay_proj (v0 : Vec Ideal S5000x64 .f32) (v2 : Vec Ideal S5000x1 .f32) (v7 : Vec Ideal S5000x64 .f32)
    (v9 v11 : Vec Ideal S64x128 .f32) (v16 : Vec Ideal S1x128 .f32) (v24 : Vec Ideal S128x64 .f32) (p : Fin 5000) (j : Fin 64) :
    k0_pay2 (F := Ideal) v0 v2 v7 v9 v11 v16 v24 (ix2 p j)
      = projRow (fun k => hiddenRow (fun c => v0 (ix2 p c)) (v2 (ix2 p 0)) (fun c => v7 (ix2 p c)) v9 v11 v16 k) v24 j := by
  unfold k0_pay2 projRow
  rw [truncf_apply, mm_128_64]
  refine Finset.sum_congr rfl fun k _ => ?_
  rw [truncf_apply, truncf_apply, pay_hidden]

/-- LAYER 2, the output block: at row `p`, column `j` the stored value is the output row of the node in row `p`. -/
theorem pay_out (v0 : Vec Ideal S5000x64 .f32) (v2 : Vec Ideal S5000x1 .f32) (v6 : Vec Ideal S5000x128 .f32)
    (v9 : Vec Ideal S128x64 .f32) (v13 : Vec Ideal S1x64 .f32) (p : Fin 5000) (j : Fin 64) :
    k1_pay1 (F := Ideal) v0 v2 v6 v9 v13 (ix2 p j)
      = outRow (fun k => v6 (ix2 p k)) v9 (v0 (ix2 p j)) (v2 (ix2 p 0)) v13 j := by
  unfold k1_pay1 outRow projRow
  simp only [shapeCast_self]
  rw [addf_apply, addf_apply, mm_128_64, bcast_row64, mulf_apply, bcast_col64]
  simp only [truncf_apply]

end Cert.KernelIdeal.Pay

end
-- ==== Proof.Blocks0.lean ====
/-
  The first region's two output arrays as whole-array functions of what the region finds. The grid has twenty points;
  point `t` works on rows 5000·t … 5000·t + 4999 of every row-blocked operand and on the weight matrices and the bias row
  whole, and writes back its block of each output. A block's row `p` is the array's row 5000·t + p, so what point `t`
  writes back is block `t` of one function of the whole arrays, and the twenty blocks tile the array.
-/
import proofs.«117206_j90477781058261_2_alg».proof.Proof.Gen.KernelIdeal.Frame
import proofs.«117206_j90477781058261_2_alg».proof.Proof.Payloads
import Idealize.ShloMosaic.Lib.Pipeline.Value
import Idealize.ShloMosaic.Lib.ValueIdx

set_option maxRecDepth 16384

noncomputable section

namespace Cert.KernelIdeal.Blocks0

open Cert.KernelIdeal Cert.KernelIdeal.Gen Cert.Sage Cert.KernelIdeal.Pay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is the point's number on the rows and zero
    on the columns; a whole-array window's is zero on both axes. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The hidden features of every node, from the arrays as the region finds them. -/
def hiddenArr (c : Dev nD) : S100000x128.Idx → EReal := fun i =>
  hiddenRow (fun cc => V c main_v26 (ix2 (i 0 : Fin 100000) cc)) (V c main_v13 (ix2 (i 0 : Fin 100000) (0 : Fin 1)))
    (fun cc => V c main_arg0 (ix2 (i 0 : Fin 100000) cc)) (V c main_arg3) (V c main_arg5) (V c main_v27) (i 1)

/-- The hidden features through the second layer's neighbour weights, for every node. -/
def projArr (c : Dev nD) : S100000x64.Idx → EReal := fun i =>
  projRow (fun k => hiddenArr V c (ix2 (i 0 : Fin 100000) k)) (V c main_arg6) (i 1)

/-- What point `t` writes back of the hidden array is its block of `hiddenArr`. -/
theorem flushed7 (c : Dev nD) (t : Fin cfg0.N) :
    (dat0 V c).flushed 7 t = ((cfg0.win 7).blk t).view.read (Elt Ideal) (hiddenArr V c) := by
  show (cfg0.win 7).cut (grid0.coords t) ((dat0 V c).after 7 t) = _
  rw [after0_7]
  unfold out0_7
  rw [View.canon_unit_zero hz]
  simp only [View.ld_unit_zero (S := S5000x64) hz, View.ld_unit_zero (S := S5000x1) hz, View.ld_unit_zero (S := S64x128) hz,
    View.ld_unit_zero (S := S1x128) hz]
  funext y
  obtain ⟨p, q, rfl⟩ : ∃ (p : Fin 5000) (q : Fin 128), y = ix2 p q := ⟨y 0, y 1, eq_ix2 y⟩
  refine (pay_hidden _ _ _ _ _ _ p q).trans ?_
  obtain ⟨⟨a0, b0⟩, ⟨a1, b1⟩, ⟨a2, b2⟩, ⟨a3, b3⟩, ⟨a4, b4⟩, ⟨a5, b5⟩, ⟨a6, b6⟩, ⟨a7, b7⟩, ⟨a8, b8⟩⟩ := idx_facts t
  show _ = hiddenArr V c (((cfg0.win 7).blk t).view.emb (ix2 p q))
  have hq : (((cfg0.win 7).blk t).view.emb (ix2 p q) 1 : Fin 128) = q :=
    Fin.ext (by show win0_7.index t (1 : Fin 2) * 128 + 1 * q.val = q.val; omega)
  have e0 : (fun cc : Fin 64 => iblk0 V c 0 t (ix2 p cc))
      = fun cc => V c main_v26 (ix2 (((cfg0.win 7).blk t).view.emb (ix2 p q) 0 : Fin 100000) cc) :=
    (funext fun cc => by
      show V c main_v26 (((cfg0.win 0).blk t).view.emb (ix2 p cc)) = _
      refine congrArg (V c main_v26) (funext fun a => Fin.ext ?_)
      match a with
      | ⟨0, _⟩ => show win0_0.index t (0 : Fin 2) * 5000 + 1 * p.val = win0_7.index t (0 : Fin 2) * 5000 + 1 * p.val; omega
      | ⟨1, _⟩ => show win0_0.index t (1 : Fin 2) * 64 + 1 * cc.val = cc.val; omega)
  have e1 : iblk0 V c 1 t (ix2 p (0 : Fin 1))
      = V c main_v13 (ix2 (((cfg0.win 7).blk t).view.emb (ix2 p q) 0 : Fin 100000) (0 : Fin 1)) := by
    show V c main_v13 (((cfg0.win 1).blk t).view.emb (ix2 p (0 : Fin 1))) = _
    refine congrArg (V c main_v13) (funext fun a => Fin.ext ?_)
    match a with
    | ⟨0, _⟩ => show win0_1.index t (0 : Fin 2) * 5000 + 1 * p.val = win0_7.index t (0 : Fin 2) * 5000 + 1 * p.val; omega
    | ⟨1, _⟩ => show win0_1.index t (1 : Fin 2) * 1 + 1 * 0 = 0; omega
  have e2 : (fun cc : Fin 64 => iblk0 V c 2 t (ix2 p cc))
      = fun cc => V c main_arg0 (ix2 (((cfg0.win 7).blk t).view.emb (ix2 p q) 0 : Fin 100000) cc) :=
    (funext fun cc => by
      show V c main_arg0 (((cfg0.win 2).blk t).view.emb (ix2 p cc)) = _
      refine congrArg (V c main_arg0) (funext fun a => Fin.ext ?_)
      match a with
      | ⟨0, _⟩ => show win0_2.index t (0 : Fin 2) * 5000 + 1 * p.val = win0_7.index t (0 : Fin 2) * 5000 + 1 * p.val; omega
      | ⟨1, _⟩ => show win0_2.index t (1 : Fin 2) * 64 + 1 * cc.val = cc.val; omega)
  have e3 : iblk0 V c 3 t = V c main_arg3 :=
    (funext fun y => by
      show V c main_arg3 (((cfg0.win 3).blk t).view.emb y) = _
      refine congrArg (V c main_arg3) (funext fun a => Fin.ext ?_)
      match a with
      | ⟨0, _⟩ => show win0_3.index t (0 : Fin 2) * 64 + 1 * (y 0).val = (y 0).val; omega
      | ⟨1, _⟩ => show win0_3.index t (1 : Fin 2) * 128 + 1 * (y 1).val = (y 1).val; omega)
  have e4 : iblk0 V c 4 t = V c main_v27 :=
    (funext fun y => by
      show V c main_v27 (((cfg0.win 4).blk t).view.emb y) = _
      refine congrArg (V c main_v27) (funext fun a => Fin.ext ?_)
      match a with
      | ⟨0, _⟩ => show win0_4.index t (0 : Fin 2) * 1 + 1 * (y 0).val = (y 0).val; omega
      | ⟨1, _⟩ => show win0_4.index t (1 : Fin 2) * 128 + 1 * (y 1).val = (y 1).val; omega)
  have e5 : iblk0 V c 5 t = V c main_arg5 :=
    (funext fun y => by
      show V c main_arg5 (((cfg0.win 5).blk t).view.emb y) = _
      refine congrArg (V c main_arg5) (funext fun a => Fin.ext ?_)
      match a with
      | ⟨0, _⟩ => show win0_5.index t (0 : Fin 2) * 64 + 1 * (y 0).val = (y 0).val; omega
      | ⟨1, _⟩ => show win0_5.index t (1 : Fin 2) * 128 + 1 * (y 1).val = (y 1).val; omega)
  unfold hiddenArr
  rw [e0, e1, e2, e3, e4, e5, hq]

/-- What point `t` writes back of the projected array is its block of `projArr`. -/
theorem flushed8 (c : Dev nD) (t : Fin cfg0.N) :
    (dat0 V c).flushed 8 t = ((cfg0.win 8).blk t).view.read (Elt Ideal) (projArr V c) := by
  show (cfg0.win 8).cut (grid0.coords t) ((dat0 V c).after 8 t) = _
  rw [after0_8]
  unfold out0_8
  rw [View.canon_unit_zero hz]
  simp only [View.ld_unit_zero (S := S5000x64) hz, View.ld_unit_zero (S := S5000x1) hz, View.ld_unit_zero (S := S64x128) hz,
    View.ld_unit_zero (S := S1x128) hz, View.ld_unit_zero (S := S128x64) hz]
  funext y
  obtain ⟨p, q, rfl⟩ : ∃ (p : Fin 5000) (q : Fin 64), y = ix2 p q := ⟨y 0, y 1, eq_ix2 y⟩
  refine (pay_proj _ _ _ _ _ _ _ p q).trans ?_
  obtain ⟨⟨a0, b0⟩, ⟨a1, b1⟩, ⟨a2, b2⟩, ⟨a3, b3⟩, ⟨a4, b4⟩, ⟨a5, b5⟩, ⟨a6, b6⟩, ⟨a7, b7⟩, ⟨a8, b8⟩⟩ := idx_facts t
  show _ = projArr V c (((cfg0.win 8).blk t).view.emb (ix2 p q))
  have hq : (((cfg0.win 8).blk t).view.emb (ix2 p q) 1 : Fin 64) = q :=
    Fin.ext (by show win0_8.index t (1 : Fin 2) * 64 + 1 * q.val = q.val; omega)
  have e0 : (fun cc : Fin 64 => iblk0 V c 0 t (ix2 p cc))
      = fun cc => V c main_v26 (ix2 (((cfg0.win 8).blk t).view.emb (ix2 p q) 0 : Fin 100000) cc) :=
    (funext fun cc => by
      show V c main_v26 (((cfg0.win 0).blk t).view.emb (ix2 p cc)) = _
      refine congrArg (V c main_v26) (funext fun a => Fin.ext ?_)
      match a with
      | ⟨0, _⟩ => show win0_0.index t (0 : Fin 2) * 5000 + 1 * p.val = win0_8.index t (0 : Fin 2) * 5000 + 1 * p.val; omega
      | ⟨1, _⟩ => show win0_0.index t (1 : Fin 2) * 64 + 1 * cc.val = cc.val; omega)
  have e1 : iblk0 V c 1 t (ix2 p (0 : Fin 1))
      = V c main_v13 (ix2 (((cfg0.win 8).blk t).view.emb (ix2 p q) 0 : Fin 100000) (0 : Fin 1)) := by
    show V c main_v13 (((cfg0.win 1).blk t).view.emb (ix2 p (0 : Fin 1))) = _
    refine congrArg (V c main_v13) (funext fun a => Fin.ext ?_)
    match a with
    | ⟨0, _⟩ => show win0_1.index t (0 : Fin 2) * 5000 + 1 * p.val = win0_8.index t (0 : Fin 2) * 5000 + 1 * p.val; omega
    | ⟨1, _⟩ => show win0_1.index t (1 : Fin 2) * 1 + 1 * 0 = 0; omega
  have e2 : (fun cc : Fin 64 => iblk0 V c 2 t (ix2 p cc))
      = fun cc => V c main_arg0 (ix2 (((cfg0.win 8).blk t).view.emb (ix2 p q) 0 : Fin 100000) cc) :=
    (funext fun cc => by
      show V c main_arg0 (((cfg0.win 2).blk t).view.emb (ix2 p cc)) = _
      refine congrArg (V c main_arg0) (funext fun a => Fin.ext ?_)
      match a with
      | ⟨0, _⟩ => show win0_2.index t (0 : Fin 2) * 5000 + 1 * p.val = win0_8.index t (0 : Fin 2) * 5000 + 1 * p.val; omega
      | ⟨1, _⟩ => show win0_2.index t (1 : Fin 2) * 64 + 1 * cc.val = cc.val; omega)
  have e3 : iblk0 V c 3 t = V c main_arg3 :=
    (funext fun y => by
      show V c main_arg3 (((cfg0.win 3).blk t).view.emb y) = _
      refine congrArg (V c main_arg3) (funext fun a => Fin.ext ?_)
      match a with
      | ⟨0, _⟩ => show win0_3.index t (0 : Fin 2) * 64 + 1 * (y 0).val = (y 0).val; omega
      | ⟨1, _⟩ => show win0_3.index t (1 : Fin 2) * 128 + 1 * (y 1).val = (y 1).val; omega)
  have e4 : iblk0 V c 4 t = V c main_v27 :=
    (funext fun y => by
      show V c main_v27 (((cfg0.win 4).blk t).view.emb y) = _
      refine congrArg (V c main_v27) (funext fun a => Fin.ext ?_)
      match a with
      | ⟨0, _⟩ => show win0_4.index t (0 : Fin 2) * 1 + 1 * (y 0).val = (y 0).val; omega
      | ⟨1, _⟩ => show win0_4.index t (1 : Fin 2) * 128 + 1 * (y 1).val = (y 1).val; omega)
  have e5 : iblk0 V c 5 t = V c main_arg5 :=
    (funext fun y => by
      show V c main_arg5 (((cfg0.win 5).blk t).view.emb y) = _
      refine congrArg (V c main_arg5) (funext fun a => Fin.ext ?_)
      match a with
      | ⟨0, _⟩ => show win0_5.index t (0 : Fin 2) * 64 + 1 * (y 0).val = (y 0).val; omega
      | ⟨1, _⟩ => show win0_5.index t (1 : Fin 2) * 128 + 1 * (y 1).val = (y 1).val; omega)
  have e6 : iblk0 V c 6 t = V c main_arg6 :=
    (funext fun y => by
      show V c main_arg6 (((cfg0.win 6).blk t).view.emb y) = _
      refine congrArg (V c main_arg6) (funext fun a => Fin.ext ?_)
      match a with
      | ⟨0, _⟩ => show win0_6.index t (0 : Fin 2) * 128 + 1 * (y 0).val = (y 0).val; omega
      | ⟨1, _⟩ => show win0_6.index t (1 : Fin 2) * 64 + 1 * (y 1).val = (y 1).val; omega)
  unfold projArr hiddenArr
  rw [e0, e1, e2, e3, e4, e5, e6, hq]

/-- An index of the array is in point `t`'s block iff each coordinate is in the block's range on its axis. -/
theorem mem_blk7 (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v28_0).slice (win0_7.rect t)).set ↔ _
  rw [View.set_slice_whole, Rect.mem_set_unit]
  exact Iff.rfl

/-- Every row lies in the block of the point numbered by the row's quotient by 5000: the twenty blocks tile the array. -/
theorem cover7 (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_7 _, ?_⟩
  rw [mem_blk7]
  obtain ⟨-, -, -, -, -, -, -, ⟨a7, b7⟩, ⟨a8, b8⟩⟩ := idx_facts ⟨(i 0).val / 5000, by rw [hN]; omega⟩
  intro a
  match a with
  | ⟨0, _⟩ =>
    show win0_7.index _ (0 : Fin 2) * 5000 ≤ (i 0).val ∧ (i 0).val < win0_7.index _ (0 : Fin 2) * 5000 + 5000
    rw [a7]; show (i 0).val / 5000 * 5000 ≤ (i 0).val ∧ (i 0).val < (i 0).val / 5000 * 5000 + 5000; omega
  | ⟨1, _⟩ =>
    show win0_7.index _ (1 : Fin 2) * 128 ≤ (i 1).val ∧ (i 1).val < win0_7.index _ (1 : Fin 2) * 128 + 128
    rw [b7]; omega

/-- An index of the array is in point `t`'s block iff each coordinate is in the block's range on its axis. -/
theorem mem_blk8 (t : Fin cfg0.N) (i : S100000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v28_1).slice (win0_8.rect t)).set ↔ _
  rw [View.set_slice_whole, Rect.mem_set_unit]
  exact Iff.rfl

/-- Every row lies in the block of the point numbered by the row's quotient by 5000: the twenty blocks tile the array. -/
theorem cover8 (i : S100000x64.Idx) :
    ∃ t : Fin cfg0.N, (cfg0.win 8).flush t = true ∧ i ∈ ((cfg0.win 8).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_8 _, ?_⟩
  rw [mem_blk8]
  obtain ⟨-, -, -, -, -, -, -, ⟨a7, b7⟩, ⟨a8, b8⟩⟩ := idx_facts ⟨(i 0).val / 5000, by rw [hN]; omega⟩
  intro a
  match a with
  | ⟨0, _⟩ =>
    show win0_8.index _ (0 : Fin 2) * 5000 ≤ (i 0).val ∧ (i 0).val < win0_8.index _ (0 : Fin 2) * 5000 + 5000
    rw [a8]; show (i 0).val / 5000 * 5000 ≤ (i 0).val ∧ (i 0).val < (i 0).val / 5000 * 5000 + 5000; omega
  | ⟨1, _⟩ =>
    show win0_8.index _ (1 : Fin 2) * 64 ≤ (i 1).val ∧ (i 1).val < win0_8.index _ (1 : Fin 2) * 64 + 64
    rw [b8]; omega

/-- The hidden array after the region. -/
theorem final7 (c : Dev nD) : (dat0 V c).arrAt 7 cfg0.N = hiddenArr V c :=
  (dat0 V c).arrAt_eq_of_cover 7 (hiddenArr V c) (fun t _ => flushed7 V c t) cover7

/-- The projected array after the region. -/
theorem final8 (c : Dev nD) : (dat0 V c).arrAt 8 cfg0.N = projArr V c :=
  (dat0 V c).arrAt_eq_of_cover 8 (projArr V c) (fun t _ => flushed8 V c t) cover8

end Cert.KernelIdeal.Blocks0

end
-- ==== Proof.Host1.lean ====
/-
  What the second region finds in its operand buffers. Between the regions the host gathers the projected hidden rows
  along the edges' sources, weights them, and sums them into the edges' destination rows — the same edge indices and
  weights as in the first layer, read from buffers the first stretch of host operations wrote and nothing since has
  touched. The reciprocal degrees are the first stretch's; the hidden features and their projection are what the first
  region left; the second bias is reshaped to a row and the root weights are as launched.
-/
import proofs.«117206_j90477781058261_2_alg».proof.Proof.Host0
import proofs.«117206_j90477781058261_2_alg».proof.Proof.Blocks0

set_option maxRecDepth 16384

noncomputable section

namespace Cert.KernelIdeal.Host1

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The raw layer-2 aggregate as the program computes it from the projected hidden rows `P`: row `P[src e]` (the source
    clamped into range) times the weight of edge `e`, summed into row `dst e` (dropped when out of range). -/
def aggTwo (P : (⟨S100000x64, .bf16⟩ : BufTy).Contents (Elt Ideal)) (x1 : (⟨S2x1200000, .i32⟩ : BufTy).Contents (Elt Ideal))
    (x2 : (⟨S1200000, .f32⟩ : BufTy).Contents (Elt Ideal)) : (⟨S100000x64, .f32⟩ : BufTy).Contents (Elt Ideal) :=
  Host.scatterAdd (F := Ideal) scatter_S100000x64_S1200000x1_S1200000x64_1_0_0_1
    (Cert.ReferenceIdeal.Read.val_main_v14 (F := Ideal)) (Cert.ReferenceIdeal.Read.val_main_v15 (F := Ideal) x1)
    (mulf (extf .f32 (Host.gather gather_S100000x64_S1200000x1_S1200000x64_1_0_n_n_0_1_164 P
        (Cert.ReferenceIdeal.Read.val_main_v9 (F := Ideal) x1)) bitsLt_bf16_f32)
      (Cert.ReferenceIdeal.Read.val_main_v12 (F := Ideal) x2))

/-- The edges' sources, as the first stretch left them. -/
theorem W2_v1 (c : Dev nD) :
    (W2 m ρ c (Proc.devRef .tc main_v1) : S1200000.Idx → BitVec 32)
      = Cert.ReferenceIdeal.Read.val_main_v1 (F := Ideal) (m ((c.tc : Thread nD τ).loc main_arg1)) :=
  (W2_of_ne m ρ c main_v1 (by decide)).trans (by
    dsimp only [W1, W0, hostOps0]
    after_results
    rfl)

/-- The edges' destinations, as the first stretch left them. -/
theorem W2_v3 (c : Dev nD) :
    (W2 m ρ c (Proc.devRef .tc main_v3) : S1200000.Idx → BitVec 32)
      = Cert.ReferenceIdeal.Read.val_main_v3 (F := Ideal) (m ((c.tc : Thread nD τ).loc main_arg1)) :=
  (W2_of_ne m ρ c main_v3 (by decide)).trans (by
    dsimp only [W1, W0, hostOps0]
    after_results
    rfl)

/-- The edge weights, as launched. -/
theorem W2_arg2 (c : Dev nD) :
    (W2 m ρ c (Proc.devRef .tc main_arg2) : S1200000.Idx → EReal) = m ((c.tc : Thread nD τ).loc main_arg2) :=
  (W2_of_ne m ρ c main_arg2 (by decide)).trans (by
    dsimp only [W1, W0, hostOps0]
    after_results)

/-- The second bias, as launched. -/
theorem W2_arg7 (c : Dev nD) :
    (W2 m ρ c (Proc.devRef .tc main_arg7) : S64.Idx → EReal) = m ((c.tc : Thread nD τ).loc main_arg7) :=
  (W2_of_ne m ρ c main_arg7 (by decide)).trans (by
    dsimp only [W1, W0, hostOps0]
    after_results)

/-- The second layer's root weights, as launched. -/
theorem W2_arg8 (c : Dev nD) :
    (W2 m ρ c (Proc.devRef .tc main_arg8) : S128x64.Idx → EReal) = m ((c.tc : Thread nD τ).loc main_arg8) :=
  (W2_of_ne m ρ c main_arg8 (by decide)).trans (by
    dsimp only [W1, W0, hostOps0]
    after_results)

/-- The reciprocal degrees: an input of the first region, which leaves it as found. -/
theorem W2_inv (c : Dev nD) :
    (W2 m ρ c (Proc.devRef .tc main_v13) : S100000x1.Idx → EReal) = Host0.invDeg (m ((c.tc : Thread nD τ).loc main_arg1)) :=
  (W2_arr m ρ c 1).trans (((dat0 (V1 m ρ) c).arrAt_in 1 rfl _).trans ((A_eq0 (V1 m ρ) c 1).trans (Host0.inv m ρ c)))

/-- The hidden features the first region left. -/
theorem W2_hidden (c : Dev nD) :
    (W2 m ρ c (Proc.devRef .tc main_v28_0) : S100000x128.Idx → EReal) = Blocks0.hiddenArr (V1 m ρ) c :=
  (W2_arr m ρ c 7).trans (Blocks0.final7 (V1 m ρ) c)

/-- Their projection, which the first region left beside them. -/
theorem W2_proj (c : Dev nD) :
    (W2 m ρ c (Proc.devRef .tc main_v28_1) : S100000x64.Idx → EReal) = Blocks0.projArr (V1 m ρ) c :=
  (W2_arr m ρ c 8).trans (Blocks0.final8 (V1 m ρ) c)

set_option maxHeartbeats 4000000 in
/-- The raw layer-2 aggregate the second region finds. -/
theorem agg (c : Dev nD) :
    (V3 m ρ c main_v42 : S100000x64.Idx → EReal)
      = aggTwo (Blocks0.projArr (V1 m ρ) c) (m ((c.tc : Thread nD τ).loc main_arg1)) (m ((c.tc : Thread nD τ).loc main_arg2)) := by
  dsimp only [V3, W3, hostOps1]
  after_results_simp
  rw [W2_v1, W2_v3, W2_arg2, W2_proj]
  rfl

/-- The reciprocal degrees the second region finds. -/
theorem inv (c : Dev nD) :
    (V3 m ρ c main_v13 : S100000x1.Idx → EReal) = Host0.invDeg (m ((c.tc : Thread nD τ).loc main_arg1)) := by
  dsimp only [V3, W3, hostOps1]
  after_results
  exact W2_inv m ρ c

/-- The hidden features the second region finds. -/
theorem hidden (c : Dev nD) :
    (V3 m ρ c main_v28_0 : S100000x128.Idx → EReal) = Blocks0.hiddenArr (V1 m ρ) c := by
  dsimp only [V3, W3, hostOps1]
  after_results
  exact W2_hidden m ρ c

/-- The second bias as a row. -/
theorem bias (c : Dev nD) :
    (V3 m ρ c main_v43 : S1x64.Idx → EReal) = shapeCast S1x64 (m ((c.tc : Thread nD τ).loc main_arg7)) shapeCasts_S64_S1x64 := by
  dsimp only [V3, W3, hostOps1]
  after_results
  rw [W2_arg7]
  rfl

/-- The second layer's root weights the second region finds. -/
theorem arg8 (c : Dev nD) :
    (V3 m ρ c main_arg8 : S128x64.Idx → EReal) = m ((c.tc : Thread nD τ).loc main_arg8) := by
  dsimp only [V3, W3, hostOps1]
  after_results
  exact W2_arg8 m ρ c

end Cert.KernelIdeal.Host1

end
-- ==== Proof.Blocks1.lean ====
/-
  The second region's output array as a whole-array function of what the region finds. As in the first region, point `t`
  of twenty works on rows 5000·t … 5000·t + 4999 of the row-blocked operands (the projected aggregate, the reciprocal
  degrees, the hidden features) and on the root weights and the bias row whole; the twenty output blocks tile the array.
-/
import proofs.«117206_j90477781058261_2_alg».proof.Proof.Gen.KernelIdeal.Frame
import proofs.«117206_j90477781058261_2_alg».proof.Proof.Payloads
import Idealize.ShloMosaic.Lib.Pipeline.Value
import Idealize.ShloMosaic.Lib.ValueIdx

set_option maxRecDepth 16384

noncomputable section

namespace Cert.KernelIdeal.Blocks1

open Cert.KernelIdeal Cert.KernelIdeal.Gen Cert.Sage Cert.KernelIdeal.Pay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is the point's number on the rows and zero
    on the columns; a whole-array window's is zero on both axes. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- The output of every node, from the arrays as the region finds them. -/
def outArr (c : Dev nD) : S100000x64.Idx → EReal := fun i =>
  outRow (fun k => V c main_v28_0 (ix2 (i 0 : Fin 100000) k)) (V c main_arg8) (V c main_v42 i)
    (V c main_v13 (ix2 (i 0 : Fin 100000) (0 : Fin 1))) (V c main_v43) (i 1)

/-- What point `t` writes back is its block of `outArr`. -/
theorem flushed5 (c : Dev nD) (t : Fin cfg1.N) :
    (dat1 V c).flushed 5 t = ((cfg1.win 5).blk t).view.read (Elt Ideal) (outArr V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S5000x128) hz,
    View.ld_unit_zero (S := S128x64) hz, View.ld_unit_zero (S := S1x64) hz]
  funext y
  obtain ⟨p, q, rfl⟩ : ∃ (p : Fin 5000) (q : Fin 64), y = ix2 p q := ⟨y 0, y 1, eq_ix2 y⟩
  refine (pay_out _ _ _ _ _ p q).trans ?_
  obtain ⟨⟨a0, b0⟩, ⟨a1, b1⟩, ⟨a2, b2⟩, ⟨a3, b3⟩, ⟨a4, b4⟩, ⟨a5, b5⟩⟩ := idx_facts t
  show _ = outArr V c (((cfg1.win 5).blk t).view.emb (ix2 p q))
  have hq : (((cfg1.win 5).blk t).view.emb (ix2 p q) 1 : Fin 64) = q :=
    Fin.ext (by show win1_5.index t (1 : Fin 2) * 64 + 1 * q.val = q.val; omega)
  have e0 : iblk1 V c 0 t (ix2 p q) = V c main_v42 (((cfg1.win 5).blk t).view.emb (ix2 p q)) := by
    show V c main_v42 (((cfg1.win 0).blk t).view.emb (ix2 p q)) = _
    refine congrArg (V c main_v42) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 64 + 1 * q.val = win1_5.index t (1 : Fin 2) * 64 + 1 * q.val; omega
  have e1 : iblk1 V c 1 t (ix2 p (0 : Fin 1))
      = V c main_v13 (ix2 (((cfg1.win 5).blk t).view.emb (ix2 p q) 0 : Fin 100000) (0 : Fin 1)) := by
    show V c main_v13 (((cfg1.win 1).blk t).view.emb (ix2 p (0 : Fin 1))) = _
    refine congrArg (V c main_v13) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 1 + 1 * 0 = 0; omega
  have e2 : (fun k : Fin 128 => iblk1 V c 2 t (ix2 p k))
      = fun k => V c main_v28_0 (ix2 (((cfg1.win 5).blk t).view.emb (ix2 p q) 0 : Fin 100000) k) :=
    (funext fun k => by
      show V c main_v28_0 (((cfg1.win 2).blk t).view.emb (ix2 p k)) = _
      refine congrArg (V c main_v28_0) (funext fun a => Fin.ext ?_)
      match a with
      | ⟨0, _⟩ => show win1_2.index t (0 : Fin 2) * 5000 + 1 * p.val = win1_5.index t (0 : Fin 2) * 5000 + 1 * p.val; omega
      | ⟨1, _⟩ => show win1_2.index t (1 : Fin 2) * 128 + 1 * k.val = k.val; omega)
  have e3 : iblk1 V c 3 t = V c main_v43 :=
    (funext fun y => by
      show V c main_v43 (((cfg1.win 3).blk t).view.emb y) = _
      refine congrArg (V c main_v43) (funext fun a => Fin.ext ?_)
      match a with
      | ⟨0, _⟩ => show win1_3.index t (0 : Fin 2) * 1 + 1 * (y 0).val = (y 0).val; omega
      | ⟨1, _⟩ => show win1_3.index t (1 : Fin 2) * 64 + 1 * (y 1).val = (y 1).val; omega)
  have e4 : iblk1 V c 4 t = V c main_arg8 :=
    (funext fun y => by
      show V c main_arg8 (((cfg1.win 4).blk t).view.emb y) = _
      refine congrArg (V c main_arg8) (funext fun a => Fin.ext ?_)
      match a with
      | ⟨0, _⟩ => show win1_4.index t (0 : Fin 2) * 128 + 1 * (y 0).val = (y 0).val; omega
      | ⟨1, _⟩ => show win1_4.index t (1 : Fin 2) * 64 + 1 * (y 1).val = (y 1).val; omega)
  unfold outArr
  rw [e0, e1, e2, e3, e4, hq]

/-- An index of the array is in point `t`'s block iff each coordinate is in the block's range on its axis. -/
theorem mem_blk5 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v44).slice (win1_5.rect t)).set ↔ _
  rw [View.set_slice_whole, Rect.mem_set_unit]
  exact Iff.rfl

/-- Every row lies in the block of the point numbered by the row's quotient by 5000: the twenty blocks tile the array. -/
theorem cover5 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_5 _, ?_⟩
  rw [mem_blk5]
  obtain ⟨-, -, -, -, -, ⟨a5, b5⟩⟩ := idx_facts ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [a5]; show (i 0).val / 5000 * 5000 ≤ (i 0).val ∧ (i 0).val < (i 0).val / 5000 * 5000 + 5000; omega
  | ⟨1, _⟩ =>
    show win1_5.index _ (1 : Fin 2) * 64 ≤ (i 1).val ∧ (i 1).val < win1_5.index _ (1 : Fin 2) * 64 + 64
    rw [b5]; omega

/-- The output array after the region. -/
theorem final5 (c : Dev nD) : (dat1 V c).arrAt 5 cfg1.N = outArr V c :=
  (dat1 V c).arrAt_eq_of_cover 5 (outArr V c) (fun t _ => flushed5 V c t) cover5

end Cert.KernelIdeal.Blocks1

end
-- ==== Proof.KernelValue.lean ====
/-
  The idealized kernel program's result as one function of its nine argument arrays.

  Writing v16 for the raw layer-1 aggregate (the reference's stage of that name) and inv for the reciprocal degrees as the
  program computes them: the hidden features are, node by node, the rectified `((v16 · inv) Wl1 + x Wr1) + bl1`; their
  projection through Wl2 is gathered along the edges, weighted and summed into the raw layer-2 aggregate; and the result
  is, node by node, `(hidden Wr2 + aggregate · inv) + bl2`.
-/
import proofs.«117206_j90477781058261_2_alg».proof.Proof.Host1
import proofs.«117206_j90477781058261_2_alg».proof.Proof.Blocks1

set_option maxRecDepth 16384

noncomputable section

namespace Cert.KernelIdeal.KernelValue

open Cert.KernelIdeal Cert.KernelIdeal.Gen Cert.Sage
open Idealize.ShloMosaic Idealize.ShloMosaic.TcCoe Idealize.ShloMosaic.ValueIdx Idealize.SL.Sem

section Functions

variable (x0 : (⟨S100000x64, .f32⟩ : BufTy).Contents (Elt Ideal)) (x1 : (⟨S2x1200000, .i32⟩ : BufTy).Contents (Elt Ideal))
  (x2 : (⟨S1200000, .f32⟩ : BufTy).Contents (Elt Ideal)) (x3 : (⟨S64x128, .f32⟩ : BufTy).Contents (Elt Ideal))
  (x4 : (⟨S128, .f32⟩ : BufTy).Contents (Elt Ideal)) (x5 : (⟨S64x128, .f32⟩ : BufTy).Contents (Elt Ideal))
  (x6 : (⟨S128x64, .f32⟩ : BufTy).Contents (Elt Ideal)) (x7 : (⟨S64, .f32⟩ : BufTy).Contents (Elt Ideal))
  (x8 : (⟨S128x64, .f32⟩ : BufTy).Contents (Elt Ideal))

/-- The hidden features of every node. -/
def hid : S100000x128.Idx → EReal := fun i =>
  hiddenRow (fun cc => Cert.ReferenceIdeal.Read.val_main_v16 (F := Ideal) x0 x1 x2 (ix2 (i 0 : Fin 100000) cc))
    (Host0.invDeg x1 (ix2 (i 0 : Fin 100000) (0 : Fin 1))) (fun cc => x0 (ix2 (i 0 : Fin 100000) cc)) x3 x5
    (shapeCast S1x128 x4 shapeCasts_S128_S1x128) (i 1)

/-- Their projection through the second layer's neighbour weights. -/
def prj : S100000x64.Idx → EReal := fun i =>
  projRow (fun k => hid x0 x1 x2 x3 x4 x5 (ix2 (i 0 : Fin 100000) k)) x6 (i 1)

/-- The result. -/
def res : S100000x64.Idx → EReal := fun i =>
  outRow (fun k => hid x0 x1 x2 x3 x4 x5 (ix2 (i 0 : Fin 100000) k)) x8 (Host1.aggTwo (prj x0 x1 x2 x3 x4 x5 x6) x1 x2 i)
    (Host0.invDeg x1 (ix2 (i 0 : Fin 100000) (0 : Fin 1))) (shapeCast S1x64 x7 shapeCasts_S64_S1x64) (i 1)

end Functions

variable (m : (ℓ : Loc nD τ sig) → Buf (Elt Ideal) ℓ) (ρ : Dev nD → PrngReg)

/-- The hidden array the first region leaves is `hid` of the arguments. -/
theorem hiddenArr_eq (c : Dev nD) :
    Blocks0.hiddenArr (V1 m ρ) c = hid (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold Blocks0.hiddenArr hid
  rw [Host0.agg, Host0.inv, Host0.arg0, Host0.arg3, Host0.arg5, Host0.bias]

/-- The projected array the first region leaves is `prj` of the arguments. -/
theorem projArr_eq (c : Dev nD) :
    Blocks0.projArr (V1 m ρ) c = prj (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold Blocks0.projArr prj
  rw [hiddenArr_eq, Host0.arg6]

/-- The result buffer at the last boundary is `res` of the arguments. -/
theorem result_eq (c : Dev nD) :
    (W4 m ρ c (Proc.devRef .tc main_v44) : S100000x64.Idx → EReal)
      = res (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) :=
  (W4_arr m ρ c 5).trans ((Blocks1.final5 (V3 m ρ) c).trans (by
    unfold Blocks1.outArr res
    rw [Host1.hidden, Host1.arg8, Host1.agg, Host1.inv, Host1.bias, hiddenArr_eq, projArr_eq]))

end Cert.KernelIdeal.KernelValue

end
-- ==== Proof.LibScatterGather.lean ====
import Idealize.ShloMosaic.PureOps.Ideal
import Idealize.ShloMosaic.PureOps.ShapeOps
import Idealize.ShloMosaic.Lib.ValueIdx

/-!
# Scatter and gather at an index

Three facts about `stablehlo.scatter` and `stablehlo.gather` read at one index.

* COUNT. An integer scatter-add of the constant `1` into zeros leaves, at each operand element, the
  number of update elements whose result index is that element (as a 32-bit word): the left fold
  adds `1` exactly once per update that lands there.
* ROW GATHER. A gather of whole rows of a two-dimensional table (collapsed row axis, one start
  index per result row) reads, at result element `(e, c)`, the table at row `clamp (idx e)` and
  column `c`.
* SCATTER LANDING. A scatter of whole rows (inserted row axis, one scatter index per update row)
  sends update element `(e, c)` to operand element `(n, c')` exactly when the signed index of row
  `e` is `n` and `c = c'`; so the sum over the updates landing at `(n, c)` is the sum over the
  update rows whose index is `n`, at column `c`.
-/

open scoped BigOperators

namespace Idealize.ShloMosaic.ScatterGather

open Idealize.ShloMosaic Idealize.ShloMosaic.ValueIdx

/-! ## Count -/

/-- A left fold whose step adds `1` at the element `g n` names (and does nothing when it names
    none), read at `i`: the start value plus the number of list entries naming `i`. -/
theorem foldl_addOne_apply {ι κ : Type} [DecidableEq ι] (g : κ → Option ι)
    (step : (ι → BitVec 32) → κ → ι → BitVec 32)
    (hsome : ∀ r n i0, g n = some i0 → ∀ i', step r n i' = if i' = i0 then r i0 + 1#32 else r i')
    (hnone : ∀ r n, g n = none → step r n = r)
    (L : List κ) (x : ι → BitVec 32) (i : ι) :
    (L.foldl step x) i = x i + BitVec.ofNat 32 (L.countP (fun n => g n = some i)) := by
  induction L generalizing x with
  | nil => simp
  | cons n L ih =>
    rw [List.foldl_cons, ih, List.countP_cons]
    cases hg : g n with
    | none => rw [hnone _ _ hg]; simp
    | some i0 =>
      rw [hsome _ _ _ hg]
      by_cases h : i = i0
      · subst h
        simp [BitVec.ofNat_add, BitVec.add_assoc, BitVec.add_comm]
      · have h' : ¬ i0 = i := fun e => h e.symm
        simp [h, h']

/-- Over the whole of `Fin N`, in order, counting the entries with a property is the cardinality of
    the set of elements with it. -/
theorem countP_finRange {N : Nat} (p : Fin N → Prop) [DecidablePred p] :
    (List.finRange N).countP (fun n => decide (p n)) = (Finset.univ.filter p).card := by
  rw [Finset.card_def, Finset.filter_val, Fin.univ_def, ← Multiset.countP_eq_card_filter]
  exact (Multiset.coe_countP _ _).symm

/-- COUNT. An integer scatter-add of the constant `1` into zeros, read at `i`: the number of update
    indices whose result index is `i`, as a 32-bit word. -/
theorem scatter_addi_one_apply {s si u : Shape} {w : Nat} (d : ScatterDims s si u) (idx : IVec si w)
    (i : s.Idx) :
    Host.scatter d IntOp.addi (fun _ => (0 : BitVec 32)) idx (fun _ => (1 : BitVec 32)) i
      = BitVec.ofNat 32 (Finset.univ.filter (fun j : u.Idx => d.resultIdx? j idx = some i)).card := by
  unfold Host.scatter
  refine (foldl_addOne_apply (fun n => d.resultIdx? (u.rowMajor.symm n) idx) _ ?_ ?_
    (List.finRange u.numel) (fun _ => (0 : BitVec 32)) i).trans ?_
  · intro r n i0 h i'
    simp only [h]
    rfl
  · intro r n h
    simp only [h]
  refine (BitVec.zero_add _).trans ?_
  rw [countP_finRange (fun n => d.resultIdx? (u.rowMajor.symm n) idx = some i)]
  congr 1
  exact Finset.card_equiv u.rowMajor.symm (by simp)

/-- COUNT, for any operand that is `0` everywhere and any updates that are `1` everywhere (however
    the two constants are spelled). -/
theorem scatter_addi_one_apply' {s si u : Shape} {w : Nat} (d : ScatterDims s si u) (idx : IVec si w)
    (x : s.Idx → BitVec 32) (upd : u.Idx → BitVec 32) (hx : ∀ i, x i = 0#32) (hu : ∀ j, upd j = 1#32)
    (i : s.Idx) :
    Host.scatter d IntOp.addi x idx upd i
      = BitVec.ofNat 32 (Finset.univ.filter (fun j : u.Idx => d.resultIdx? j idx = some i)).card := by
  obtain rfl : x = fun _ => (0 : BitVec 32) := funext hx
  obtain rfl : upd = fun _ => (1 : BitVec 32) := funext hu
  exact scatter_addi_one_apply d idx i

/-! ## Row gather

A gather of whole rows of a table `[N, C]` at start indices `[R, 1]` (offset axis `1`, collapsed
slice axis `0`, start index map `[0]`, index vector axis `1`, slice sizes `[1, C]`): result element
`(e, c)` is the table at row `idx[e, 0]`, read signed and clamped into `[0, N − 1]`, and column `c`. -/

section RowGather
variable {α : Type}

/-- Those dimension numbers for a table `[N, C]`, start indices `[R, 1]` and result `[R, C]`; their
    conditions `wf` are decided on literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the table at the row `idx[e, 0]` names, read signed and clamped
    into `[0, N − 1]`, and column `c`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  refine funext (Fin.forall_fin_two.2 ⟨Fin.ext ?_, Fin.ext ?_⟩)
  · show (rowGatherDims N R C wf).start (ix2 e c) idx 0 + (rowGatherDims N R C wf).batchCoord (ix2 e c) 0
      + (rowGatherDims N R C wf).offCoord (ix2 e c) 0 = _
    rw [GatherDims.batchCoord_eq_zero _ _ _ List.not_mem_nil, Nat.add_zero]
    rw [GatherDims.offCoord_eq_zero _ _ _
      (fun h => ((GatherDims.mem_sKept _ _).mp h).1 (List.mem_singleton.mpr rfl)), Nat.add_zero]
    unfold GatherDims.start
    rw [dif_pos (show (0 : Fin 2) ∈ (rowGatherDims N R C wf).startIndexMap from List.mem_singleton.mpr rfl)]
    have hsi : (rowGatherDims N R C wf).siIdx (ix2 e c)
        ⟨List.idxOf (0 : Fin 2) (rowGatherDims N R C wf).startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  · show (rowGatherDims N R C wf).start (ix2 e c) idx 1 + (rowGatherDims N R C wf).batchCoord (ix2 e c) 1
      + (rowGatherDims N R C wf).offCoord (ix2 e c) 1 = _
    rw [GatherDims.batchCoord_eq_zero _ _ _ List.not_mem_nil, Nat.add_zero]
    have hs : (rowGatherDims N R C wf).start (ix2 e c) idx 1 = 0 := by
      unfold GatherDims.start
      rw [dif_neg (show ¬ (1 : Fin 2) ∈ (rowGatherDims N R C wf).startIndexMap from
        fun h => absurd (congrArg Fin.val (List.mem_singleton.mp h)) Nat.one_ne_zero)]
    rw [hs, Nat.zero_add]
    rfl

end RowGather

/-! ### The two literal row gathers: tables `[100000, 64]` and `[100000, 128]`, `1200000` rows read -/

section RowGatherLiteral
variable {α : Type}

/-- The table row that start index `idx[e, 0]` names: read signed, clamped into `[0, 99999]`. The
    same function of the start indices at every table width. -/
def gatherRow {w : Nat} (idx : IVec ⟨2, ![1200000, 1]⟩ w) (e : Fin 1200000) : Fin 100000 :=
  ⟨min (idx (ix2 e 0)).toInt.toNat 99999, by omega⟩

/-- The row gather's dimension numbers at a table `[100000, 64]`. -/
def rowGather64 : GatherDims ⟨2, ![100000, 64]⟩ ⟨2, ![1200000, 1]⟩ ⟨2, ![1200000, 64]⟩ :=
  { offsetDims := [1], collapsedSliceDims := [0], operandBatchingDims := [], startIndicesBatchingDims := [],
    startIndexMap := [0], indexVectorDim := 1, sliceSizes := ![1, 64] }

/-- The row gather's dimension numbers at a table `[100000, 128]`. -/
def rowGather128 : GatherDims ⟨2, ![100000, 128]⟩ ⟨2, ![1200000, 1]⟩ ⟨2, ![1200000, 128]⟩ :=
  { offsetDims := [1], collapsedSliceDims := [0], operandBatchingDims := [], startIndicesBatchingDims := [],
    startIndexMap := [0], indexVectorDim := 1, sliceSizes := ![1, 128] }

/-- The 64-wide row gather at `(e, c)`: the table at row `gatherRow idx e`, column `c`. -/
theorem rowGather64_apply {w : Nat} (x : (⟨2, ![100000, 64]⟩ : Shape).Idx → α)
    (idx : IVec ⟨2, ![1200000, 1]⟩ w) (e : Fin 1200000) (c : Fin 64) :
    Host.gather rowGather64 x idx (ix2 e c) = x (ix2 (gatherRow idx e) c) :=
  rowGather_apply (N := 100000) (R := 1200000) (C := 64) (by omega) rowGather64.wf x idx e c

/-- The 128-wide row gather at `(e, c)`: the table at row `gatherRow idx e`, column `c`. -/
theorem rowGather128_apply {w : Nat} (x : (⟨2, ![100000, 128]⟩ : Shape).Idx → α)
    (idx : IVec ⟨2, ![1200000, 1]⟩ w) (e : Fin 1200000) (c : Fin 128) :
    Host.gather rowGather128 x idx (ix2 e c) = x (ix2 (gatherRow idx e) c) :=
  rowGather_apply (N := 100000) (R := 1200000) (C := 128) (by omega) rowGather128.wf x idx e c

end RowGatherLiteral

/-! ## Scatter landing

A scatter of whole rows `[R, C]` into a table `[N, C]` at scatter indices `[R, 1]` (update window
axis `1`, inserted window axis `0`, scatter-dims-to-operand-dims `[0]`, index vector axis `1`):
update element `(e, c)` lands at row `idx[e, 0]`, read signed and NOT clamped, column `c`, and is
dropped when that row is outside `[0, N)`. -/

section RowScatter

/-- Those dimension numbers for a table `[N, C]`, scatter indices `[R, 1]` and updates `[R, C]`;
    their conditions `wf` are decided on literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the row axis the window starts at the signed scatter index of the update's row … -/
theorem rowScatter_start0 (idx : IVec ⟨2, ![R, 1]⟩ w) (e : Fin R) (c : Fin C) :
    (rowScatterDims N R C wf).start (ix2 e c) idx 0 = (idx (ix2 e 0)).toInt := by
  unfold ScatterDims.start
  rw [dif_pos (show (0 : Fin 2) ∈ (rowScatterDims N R C wf).scatterDimsToOperandDims from
    List.mem_singleton.mpr rfl)]
  have hsi : (rowScatterDims N R C wf).siIdx (ix2 e c)
      ⟨List.idxOf (0 : Fin 2) (rowScatterDims N R C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and has no window coordinate (the row axis is inserted). -/
theorem rowScatter_window0 (e : Fin R) (c : Fin C) :
    (rowScatterDims N R C wf).window (ix2 e c) 0 = 0 := by
  unfold ScatterDims.window
  rw [dif_neg (show ¬ (0 : Fin 2) ∈ (rowScatterDims N R C wf).sKept from by
    simp [ScatterDims.sKept, Shape.kept, List.mem_filter, List.mem_finRange])]

/-- On the column axis the window starts at `0` … -/
theorem rowScatter_start1 (idx : IVec ⟨2, ![R, 1]⟩ w) (e : Fin R) (c : Fin C) :
    (rowScatterDims N R C wf).start (ix2 e c) idx 1 = 0 := by
  unfold ScatterDims.start
  rw [dif_neg (show ¬ (1 : Fin 2) ∈ (rowScatterDims N R C wf).scatterDimsToOperandDims from
    fun h => absurd (congrArg Fin.val (List.mem_singleton.mp h)) Nat.one_ne_zero)]

/-- … and the window coordinate is the update's column. -/
theorem rowScatter_window1 (e : Fin R) (c : Fin C) :
    (rowScatterDims N R C wf).window (ix2 e c) 1 = c.val := by
  unfold ScatterDims.window
  rw [dif_pos (show (1 : Fin 2) ∈ (rowScatterDims N R C wf).sKept from by
    simp [ScatterDims.sKept, Shape.kept, List.mem_filter, List.mem_finRange])]
  rfl

/-- WHERE AN UPDATE LANDS: update element `(e, c)` lands at row `idx[e, 0]` (signed) and column `c`
    when that row is inside `[0, N)`, and is dropped when it is not. -/
theorem rowScatter_resultIdx_eq (idx : IVec ⟨2, ![R, 1]⟩ w) (e : Fin R) (c : Fin C) :
    (rowScatterDims N R C wf).resultIdx? (ix2 e c) idx
      = if h : 0 ≤ (idx (ix2 e 0)).toInt ∧ (idx (ix2 e 0)).toInt < (N : Int) then
          some (ix2 ⟨(idx (ix2 e 0)).toInt.toNat, by omega⟩ c)
        else none := by
  have h0 : (rowScatterDims N R C wf).start (ix2 e c) idx 0 + (rowScatterDims N R C wf).window (ix2 e c) 0
      = (idx (ix2 e 0)).toInt := by
    rw [rowScatter_start0, rowScatter_window0]; simp
  have h1 : (rowScatterDims N R C wf).start (ix2 e c) idx 1 + (rowScatterDims N R C wf).window (ix2 e c) 1
      = (c.val : Int) := by
    rw [rowScatter_start1, rowScatter_window1]; simp
  unfold ScatterDims.resultIdx?
  by_cases h : 0 ≤ (idx (ix2 e 0)).toInt ∧ (idx (ix2 e 0)).toInt < (N : Int)
  · have hall : ∀ a, 0 ≤ (rowScatterDims N R C wf).start (ix2 e c) idx a + (rowScatterDims N R C wf).window (ix2 e c) a
        ∧ (rowScatterDims N R C wf).start (ix2 e c) idx a + (rowScatterDims N R C wf).window (ix2 e c) a
          < ((⟨2, ![N, C]⟩ : Shape).size a : Int) := by
      refine Fin.forall_fin_two.2 ⟨?_, ?_⟩
      · rw [h0]; exact h
      · rw [h1]; exact ⟨Int.natCast_nonneg _, Int.ofNat_lt.2 c.isLt⟩
    rw [dif_pos hall, dif_pos h]
    congr 1
    refine funext (Fin.forall_fin_two.2 ⟨Fin.ext ?_, Fin.ext ?_⟩)
    · show ((rowScatterDims N R C wf).start (ix2 e c) idx 0 + (rowScatterDims N R C wf).window (ix2 e c) 0).toNat = _
      rw [h0]
    · show ((rowScatterDims N R C wf).start (ix2 e c) idx 1 + (rowScatterDims N R C wf).window (ix2 e c) 1).toNat = _
      rw [h1]; exact Int.toNat_natCast _
  · rw [dif_neg h, dif_neg]
    intro hall
    have := hall 0
    rw [h0] at this
    exact h this

/-- SCATTER LANDING: update element `(e, c)` lands on table element `(n, c')` exactly when the signed
    scatter index of row `e` is `n` and the columns agree. -/
theorem rowScatter_resultIdx_iff (idx : IVec ⟨2, ![R, 1]⟩ w) (e : Fin R) (c : Fin C) (n : Fin N) (c' : Fin C) :
    (rowScatterDims N R C wf).resultIdx? (ix2 e c) idx = some (ix2 n c')
      ↔ ((idx (ix2 e 0)).toInt = (n.val : Int) ∧ c = c') := by
  rw [rowScatter_resultIdx_eq]
  by_cases h : 0 ≤ (idx (ix2 e 0)).toInt ∧ (idx (ix2 e 0)).toInt < (N : Int)
  · rw [dif_pos h]
    constructor
    · intro heq
      have heq' := Option.some.inj heq
      have h0 : (⟨(idx (ix2 e 0)).toInt.toNat, by omega⟩ : Fin N) = n := congrFun heq' 0
      have h1 : c = c' := congrFun heq' 1
      have h0' : (idx (ix2 e 0)).toInt.toNat = n.val := congrArg Fin.val h0
      exact ⟨by omega, h1⟩
    · rintro ⟨ht, rfl⟩
      have h0 : (⟨(idx (ix2 e 0)).toInt.toNat, by omega⟩ : Fin N) = n := Fin.ext (by simp [ht])
      rw [h0]
  · rw [dif_neg h]
    constructor
    · intro h'; cases h'
    · rintro ⟨ht, _⟩
      exact absurd ⟨by omega, by have := n.isLt; omega⟩ h

/-- THE SUM OVER WHAT LANDS AT `(n, c)`: over the update rows whose signed scatter index is `n`, at
    column `c`. -/
theorem rowScatter_sum {M : Type} [AddCommMonoid M] (idx : IVec ⟨2, ![R, 1]⟩ w) (n : Fin N) (c : Fin C)
    (f : (⟨2, ![R, C]⟩ : Shape).Idx → M)
    [hd : DecidablePred (fun j => (rowScatterDims N R C wf).resultIdx? j idx = some (ix2 n c))] :
    ∑ j ∈ Finset.univ.filter (fun j => (rowScatterDims N R C wf).resultIdx? j idx = some (ix2 n c)), f j
      = ∑ e ∈ Finset.univ.filter (fun e : Fin R => (idx (ix2 e 0)).toInt = (n.val : Int)), f (ix2 e c) := by
  symm
  refine Finset.sum_bij (fun e _ => ix2 e c) ?_ ?_ ?_ ?_
  · intro e he
    rw [Finset.mem_filter] at he ⊢
    exact ⟨Finset.mem_univ _, (rowScatter_resultIdx_iff wf idx e c n c).2 ⟨he.2, rfl⟩⟩
  · intro e _ e' _ heq
    exact congrFun heq 0
  · intro j hj
    rw [Finset.mem_filter] at hj
    have hj' : j = ix2 (n0 := R) (n1 := C) (j 0) (j 1) := eq_ix2 j
    have hj2 : (rowScatterDims N R C wf).resultIdx? (ix2 (n0 := R) (n1 := C) (j 0) (j 1)) idx
        = some (ix2 n c) := by rw [← hj']; exact hj.2
    have hj3 := (rowScatter_resultIdx_iff wf idx (j 0) (j 1) n c).1 hj2
    refine ⟨j 0, Finset.mem_filter.2 ⟨Finset.mem_univ _, hj3.1⟩, ?_⟩
    show ix2 (n0 := R) (n1 := C) (j 0) c = j
    rw [← hj3.2]
    exact hj'.symm
  · intro e _
    rfl

end RowScatter

/-! ### The two literal row scatters: tables `[100000, 64]` and `[100000, 128]`, `1200000` update rows -/

section RowScatterLiteral

/-- The update rows whose signed scatter index is `n`: the rows that land on table row `n`. The same
    set at every table width. -/
def landsAt {w : Nat} (idx : IVec ⟨2, ![1200000, 1]⟩ w) (n : Fin 100000) : Finset (Fin 1200000) :=
  Finset.univ.filter (fun e => (idx (ix2 e 0)).toInt = (n.val : Int))

/-- Membership in `landsAt`, unfolded. -/
theorem mem_landsAt {w : Nat} (idx : IVec ⟨2, ![1200000, 1]⟩ w) (n : Fin 100000) (e : Fin 1200000) :
    e ∈ landsAt idx n ↔ (idx (ix2 e 0)).toInt = (n.val : Int) := by
  unfold landsAt; rw [Finset.mem_filter]; exact ⟨fun h => h.2, fun h => ⟨Finset.mem_univ _, h⟩⟩

/-- The row scatter's dimension numbers at a table `[100000, 64]`. -/
def rowScatter64 : ScatterDims ⟨2, ![100000, 64]⟩ ⟨2, ![1200000, 1]⟩ ⟨2, ![1200000, 64]⟩ :=
  { updateWindowDims := [1], insertedWindowDims := [0], scatterDimsToOperandDims := [0], indexVectorDim := 1 }

/-- The row scatter's dimension numbers at a table `[100000, 128]`. -/
def rowScatter128 : ScatterDims ⟨2, ![100000, 128]⟩ ⟨2, ![1200000, 1]⟩ ⟨2, ![1200000, 128]⟩ :=
  { updateWindowDims := [1], insertedWindowDims := [0], scatterDimsToOperandDims := [0], indexVectorDim := 1 }

/-- The 64-wide row scatter: update `(e, c)` lands on `(n, c')` exactly when row `e`'s signed index is
    `n` and `c = c'`. -/
theorem rowScatter64_resultIdx {w : Nat} (idx : IVec ⟨2, ![1200000, 1]⟩ w) (e : Fin 1200000) (c : Fin 64)
    (n : Fin 100000) (c' : Fin 64) :
    rowScatter64.resultIdx? (ix2 e c) idx = some (ix2 n c')
      ↔ ((idx (ix2 e 0)).toInt = (n.val : Int) ∧ c = c') :=
  rowScatter_resultIdx_iff (N := 100000) (R := 1200000) (C := 64) rowScatter64.wf idx e c n c'

/-- The 128-wide row scatter: update `(e, c)` lands on `(n, c')` exactly when row `e`'s signed index
    is `n` and `c = c'`. -/
theorem rowScatter128_resultIdx {w : Nat} (idx : IVec ⟨2, ![1200000, 1]⟩ w) (e : Fin 1200000) (c : Fin 128)
    (n : Fin 100000) (c' : Fin 128) :
    rowScatter128.resultIdx? (ix2 e c) idx = some (ix2 n c')
      ↔ ((idx (ix2 e 0)).toInt = (n.val : Int) ∧ c = c') :=
  rowScatter_resultIdx_iff (N := 100000) (R := 1200000) (C := 128) rowScatter128.wf idx e c n c'

/-- The 64-wide row scatter's sum over what lands at `(n, c)`: over `landsAt idx n`, at column `c`. -/
theorem rowScatter64_sum {M : Type} [AddCommMonoid M] {w : Nat} (idx : IVec ⟨2, ![1200000, 1]⟩ w)
    (n : Fin 100000) (c : Fin 64) (f : (⟨2, ![1200000, 64]⟩ : Shape).Idx → M)
    [hd : DecidablePred (fun j => rowScatter64.resultIdx? j idx = some (ix2 n c))] :
    ∑ j ∈ Finset.univ.filter (fun j => rowScatter64.resultIdx? j idx = some (ix2 n c)), f j
      = ∑ e ∈ landsAt idx n, f (ix2 e c) :=
  rowScatter_sum (N := 100000) (R := 1200000) (C := 64) rowScatter64.wf idx n c f (hd := hd)

/-- The 128-wide row scatter's sum over what lands at `(n, c)`: over `landsAt idx n`, at column `c`. -/
theorem rowScatter128_sum {M : Type} [AddCommMonoid M] {w : Nat} (idx : IVec ⟨2, ![1200000, 1]⟩ w)
    (n : Fin 100000) (c : Fin 128) (f : (⟨2, ![1200000, 128]⟩ : Shape).Idx → M)
    [hd : DecidablePred (fun j => rowScatter128.resultIdx? j idx = some (ix2 n c))] :
    ∑ j ∈ Finset.univ.filter (fun j => rowScatter128.resultIdx? j idx = some (ix2 n c)), f j
      = ∑ e ∈ landsAt idx n, f (ix2 e c) :=
  rowScatter_sum (N := 100000) (R := 1200000) (C := 128) rowScatter128.wf idx n c f (hd := hd)

end RowScatterLiteral

/-! ## Scalar scatter landing

A scatter of scalars `[R]` into a vector `[N]` at scatter indices `[R, 1]` (no update window axis,
inserted window axis `0`, scatter-dims-to-operand-dims `[0]`, index vector axis `1`): update element
`e` lands at position `idx[e, 0]`, read signed and NOT clamped, and is dropped outside `[0, N)`. -/

section VecScatter

/-- Those dimension numbers for a vector `[N]`, scatter indices `[R, 1]` and updates `[R]`; their
    conditions `wf` are decided on literal shapes. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

/-- The window starts at the signed scatter index of the update … -/
theorem vecScatter_start0 (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from
    List.mem_singleton.mpr rfl)]
  have hsi : (vecScatterDims N R wf).siIdx (ix1 e)
      ⟨List.idxOf (0 : Fin 1) (vecScatterDims N R wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and has no window coordinate (the one axis is inserted). -/
theorem vecScatter_window0 (e : Fin R) :
    (vecScatterDims N R wf).window (ix1 e) 0 = 0 := by
  unfold ScatterDims.window
  rw [dif_neg (show ¬ (0 : Fin 1) ∈ (vecScatterDims N R wf).sKept from by
    simp [ScatterDims.sKept, Shape.kept, List.mem_filter, List.mem_finRange])]

/-- WHERE AN UPDATE LANDS: update element `e` lands at position `idx[e, 0]` (signed) when that is
    inside `[0, N)`, and is dropped when it is not. -/
theorem vecScatter_resultIdx_eq (idx : IVec ⟨2, ![R, 1]⟩ w) (e : Fin R) :
    (vecScatterDims N R wf).resultIdx? (ix1 e) idx
      = if h : 0 ≤ (idx (ix2 e 0)).toInt ∧ (idx (ix2 e 0)).toInt < (N : Int) then
          some (ix1 ⟨(idx (ix2 e 0)).toInt.toNat, by omega⟩)
        else none := by
  have h0 : (vecScatterDims N R wf).start (ix1 e) idx 0 + (vecScatterDims N R wf).window (ix1 e) 0
      = (idx (ix2 e 0)).toInt := by
    rw [vecScatter_start0, vecScatter_window0]; simp
  unfold ScatterDims.resultIdx?
  by_cases h : 0 ≤ (idx (ix2 e 0)).toInt ∧ (idx (ix2 e 0)).toInt < (N : Int)
  · have hall : ∀ a, 0 ≤ (vecScatterDims N R wf).start (ix1 e) idx a + (vecScatterDims N R wf).window (ix1 e) a
        ∧ (vecScatterDims N R wf).start (ix1 e) idx a + (vecScatterDims N R wf).window (ix1 e) a
          < ((⟨1, ![N]⟩ : Shape).size a : Int) := by
      intro a
      obtain rfl : a = 0 := Subsingleton.elim _ _
      rw [h0]; exact h
    rw [dif_pos hall, dif_pos h]
    congr 1
    funext a
    obtain rfl : a = 0 := Subsingleton.elim _ _
    refine Fin.ext ?_
    show ((vecScatterDims N R wf).start (ix1 e) idx 0 + (vecScatterDims N R wf).window (ix1 e) 0).toNat = _
    rw [h0]
    rfl
  · rw [dif_neg h, dif_neg]
    intro hall
    have := hall 0
    rw [h0] at this
    exact h this

/-- SCALAR SCATTER LANDING: update element `e` lands on position `n` exactly when its signed scatter
    index is `n`. -/
theorem vecScatter_resultIdx_iff (idx : IVec ⟨2, ![R, 1]⟩ w) (e : Fin R) (n : Fin N) :
    (vecScatterDims N R wf).resultIdx? (ix1 e) idx = some (ix1 n)
      ↔ (idx (ix2 e 0)).toInt = (n.val : Int) := by
  rw [vecScatter_resultIdx_eq]
  by_cases h : 0 ≤ (idx (ix2 e 0)).toInt ∧ (idx (ix2 e 0)).toInt < (N : Int)
  · rw [dif_pos h]
    constructor
    · intro heq
      have h0 : (⟨(idx (ix2 e 0)).toInt.toNat, by omega⟩ : Fin N) = n := congrFun (Option.some.inj heq) 0
      have h0' : (idx (ix2 e 0)).toInt.toNat = n.val := congrArg Fin.val h0
      omega
    · intro ht
      have h0 : (⟨(idx (ix2 e 0)).toInt.toNat, by omega⟩ : Fin N) = n := Fin.ext (by simp [ht])
      rw [h0]
  · rw [dif_neg h]
    constructor
    · intro h'; cases h'
    · intro ht
      exact absurd ⟨by omega, by have := n.isLt; omega⟩ h

/-- THE SUM OVER WHAT LANDS AT `n`: over the update elements whose signed scatter index is `n`. -/
theorem vecScatter_sum {M : Type} [AddCommMonoid M] (idx : IVec ⟨2, ![R, 1]⟩ w) (n : Fin N)
    (f : (⟨1, ![R]⟩ : Shape).Idx → M)
    [hd : DecidablePred (fun j => (vecScatterDims N R wf).resultIdx? j idx = some (ix1 n))] :
    ∑ j ∈ Finset.univ.filter (fun j => (vecScatterDims N R wf).resultIdx? j idx = some (ix1 n)), f j
      = ∑ e ∈ Finset.univ.filter (fun e : Fin R => (idx (ix2 e 0)).toInt = (n.val : Int)), f (ix1 e) := by
  symm
  refine Finset.sum_bij (fun e _ => ix1 e) ?_ ?_ ?_ ?_
  · intro e he
    rw [Finset.mem_filter] at he ⊢
    exact ⟨Finset.mem_univ _, (vecScatter_resultIdx_iff wf idx e n).2 he.2⟩
  · intro e _ e' _ heq
    exact congrFun heq 0
  · intro j hj
    rw [Finset.mem_filter] at hj
    have hj' : j = ix1 (n := R) (j 0) := eq_ix1 j
    have hj2 : (vecScatterDims N R wf).resultIdx? (ix1 (n := R) (j 0)) idx = some (ix1 n) := by
      rw [← hj']; exact hj.2
    have hj3 := (vecScatter_resultIdx_iff wf idx (j 0) n).1 hj2
    exact ⟨j 0, Finset.mem_filter.2 ⟨Finset.mem_univ _, hj3⟩, hj'.symm⟩
  · intro e _
    rfl

/-- HOW MANY LAND AT `n`: as many as there are update elements whose signed scatter index is `n`. -/
theorem vecScatter_card (idx : IVec ⟨2, ![R, 1]⟩ w) (n : Fin N)
    [hd : DecidablePred (fun j => (vecScatterDims N R wf).resultIdx? j idx = some (ix1 n))] :
    (Finset.univ.filter (fun j => (vecScatterDims N R wf).resultIdx? j idx = some (ix1 n))).card
      = (Finset.univ.filter (fun e : Fin R => (idx (ix2 e 0)).toInt = (n.val : Int))).card := by
  rw [Finset.card_eq_sum_ones, Finset.card_eq_sum_ones]
  exact vecScatter_sum wf idx n (fun _ => 1)

end VecScatter

end Idealize.ShloMosaic.ScatterGather
-- ==== Proof.LibReal.lean ====
/-
  Extended reals that are real numbers. An entry of a finite input is one (its absolute value lies below +infinity);
  sums, differences, products, finite sums and quotients by a nonzero real of such entries are again real, and so is the
  value of any f32 pattern whose exponent field is not all ones. What an algebraic law that needs finiteness is applied
  to is first shown to be of this kind.
-/
import Idealize.ShloMosaic.PureOps.Ideal
import Mathlib.Algebra.BigOperators.Group.Finset.Basic

namespace Idealize.ShloMosaic.RealEntries

open Idealize.ShloMosaic

/-- The extended real `a` is a real number. -/
def IsReal (a : EReal) : Prop := ∃ r : ℝ, a = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- A quotient by a nonzero real. -/
theorem IsReal.div_coe {a : EReal} (ha : IsReal a) {y : ℝ} (hy : y ≠ 0) : IsReal (Ideal.div a (y : EReal)) := by
  rw [Ideal.div_coe hy]; exact ha.mul (IsReal.coe _)

/-- An f32 pattern whose exponent field is not all ones denotes a real number. -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  dsimp only
  rw [if_neg h]
  split_ifs <;> exact ⟨_, rfl⟩

/-- An extended real whose absolute value lies below +infinity is a real number. -/
theorem isReal_of_abs_lt_top {a : EReal} (h : max a (-a) < ⊤) : IsReal a := by
  induction a using EReal.rec with
  | bot => simp at h
  | coe r => exact ⟨r, rfl⟩
  | top => simp at h

end Idealize.ShloMosaic.RealEntries
-- ==== Proof.RefStages.lean ====
/-
  The reference, stage by stage, read at an index: each dense layer as the explicit finite sum it is, the degree as a
  count, the two scatter stages opened one level, and the fact that every stage of a real-valued input is real-valued.
-/
import proofs.«117206_j90477781058261_2_alg».proof.Proof.Gen.ReferenceIdeal.Read
import Idealize.ShloMosaic.Lib.ValueIdx
import proofs.«117206_j90477781058261_2_alg».proof.Proof.LibReal

noncomputable section

namespace Cert.ReferenceIdeal.RefStages

open Idealize.ShloMosaic Idealize.ShloMosaic.ValueIdx Idealize.ShloMosaic.RealEntries
open Cert.ReferenceIdeal Cert.ReferenceIdeal.Gen Cert.ReferenceIdeal.Read

/-! ## Index bookkeeping: the generated index maps at an index given by its coordinates -/

theorem lidx26 (n : Fin 100000) (k : Fin 128) (c : Fin 64) : lidx_main_v26 (ix2 n k) c = ix2 n c :=
  funext fun a => Fin.ext (by match a with | ⟨0, _⟩ => rfl | ⟨1, _⟩ => rfl)
theorem ridx26 (n : Fin 100000) (k : Fin 128) (c : Fin 64) : ridx_main_v26 (ix2 n k) c = ix2 c k :=
  funext fun a => Fin.ext (by match a with | ⟨0, _⟩ => rfl | ⟨1, _⟩ => rfl)
theorem lidx30 (n : Fin 100000) (k : Fin 128) (c : Fin 64) : lidx_main_v30 (ix2 n k) c = ix2 n c :=
  funext fun a => Fin.ext (by match a with | ⟨0, _⟩ => rfl | ⟨1, _⟩ => rfl)
theorem ridx30 (n : Fin 100000) (k : Fin 128) (c : Fin 64) : ridx_main_v30 (ix2 n k) c = ix2 c k :=
  funext fun a => Fin.ext (by match a with | ⟨0, _⟩ => rfl | ⟨1, _⟩ => rfl)
theorem idx2324 (n : Fin 100000) (c : Fin 64) : idx_main_v23 (idx_main_v24 (ix2 n c)) = ix1 n :=
  funext fun a => Fin.ext (by match a with | ⟨0, _⟩ => rfl)
theorem idx2728 (n : Fin 100000) (k : Fin 128) : idx_main_v27 (idx_main_v28 (ix2 n k)) = ix1 k :=
  funext fun a => Fin.ext (by match a with | ⟨0, _⟩ => rfl)

/-! ## The first layer at an index -/

/-- The normalised aggregate at an index: the raw aggregate over the clamped degree of its row. -/
theorem v25_at (x0 : (⟨S100000x64, .f32⟩ : BufTy).Contents (Elt Ideal)) (x1 : (⟨S2x1200000, .i32⟩ : BufTy).Contents (Elt Ideal))
    (x2 : (⟨S1200000, .f32⟩ : BufTy).Contents (Elt Ideal)) (n : Fin 100000) (c : Fin 64) :
    val_main_v25 (F := Ideal) x0 x1 x2 (ix2 n c)
      = Ideal.div (val_main_v16 (F := Ideal) x0 x1 x2 (ix2 n c)) (val_main_v22 (F := Ideal) x1 (ix1 n)) := by
  rw [val_main_v25_apply, val_main_v24_apply, val_main_v23_apply, idx2324, Ideal.hostDivf_def]

/-- The hidden layer at an index. -/
theorem v32_at (x0 : (⟨S100000x64, .f32⟩ : BufTy).Contents (Elt Ideal)) (x1 : (⟨S2x1200000, .i32⟩ : BufTy).Contents (Elt Ideal))
    (x2 : (⟨S1200000, .f32⟩ : BufTy).Contents (Elt Ideal)) (x3 : (⟨S64x128, .f32⟩ : BufTy).Contents (Elt Ideal))
    (x4 : (⟨S128, .f32⟩ : BufTy).Contents (Elt Ideal)) (x5 : (⟨S64x128, .f32⟩ : BufTy).Contents (Elt Ideal))
    (n : Fin 100000) (k : Fin 128) :
    val_main_v32 (F := Ideal) x0 x1 x2 x3 x4 x5 (ix2 n k)
      = max (((∑ c : Fin 64, Ideal.div (val_main_v16 (F := Ideal) x0 x1 x2 (ix2 n c)) (val_main_v22 (F := Ideal) x1 (ix1 n)) * x3 (ix2 c k))
          + x4 (ix1 k)) + ∑ c : Fin 64, x0 (ix2 n c) * x5 (ix2 c k)) 0 := by
  rw [val_main_v32_apply, val_main_v31_apply, val_main_v29_apply, val_main_v26_apply, val_main_v30_apply,
    val_main_v28_apply, val_main_v27_apply, val_main_call0_v0_apply, val_main_call0_cst_apply, idx2728]
  simp only [Ideal.maximumf_def, Ideal.addf_def, Ideal.ofBits_def, Ideal.ofBits_zero_f32, lidx26, ridx26, lidx30, ridx30, v25_at]

/-! ## The second layer at an index -/

theorem lidx55 (n : Fin 100000) (j : Fin 64) (k : Fin 128) : lidx_main_v55 (ix2 n j) k = ix2 n k :=
  funext fun a => Fin.ext (by match a with | ⟨0, _⟩ => rfl | ⟨1, _⟩ => rfl)
theorem ridx55 (n : Fin 100000) (j : Fin 64) (k : Fin 128) : ridx_main_v55 (ix2 n j) k = ix2 k j :=
  funext fun a => Fin.ext (by match a with | ⟨0, _⟩ => rfl | ⟨1, _⟩ => rfl)
theorem lidx59 (n : Fin 100000) (j : Fin 64) (k : Fin 128) : lidx_main_v59 (ix2 n j) k = ix2 n k :=
  funext fun a => Fin.ext (by match a with | ⟨0, _⟩ => rfl | ⟨1, _⟩ => rfl)
theorem ridx59 (n : Fin 100000) (j : Fin 64) (k : Fin 128) : ridx_main_v59 (ix2 n j) k = ix2 k j :=
  funext fun a => Fin.ext (by match a with | ⟨0, _⟩ => rfl | ⟨1, _⟩ => rfl)
theorem idx5253 (n : Fin 100000) (k : Fin 128) : idx_main_v52 (idx_main_v53 (ix2 n k)) = ix1 n :=
  funext fun a => Fin.ext (by match a with | ⟨0, _⟩ => rfl)
theorem idx5657 (n : Fin 100000) (j : Fin 64) : idx_main_v56 (idx_main_v57 (ix2 n j)) = ix1 j :=
  funext fun a => Fin.ext (by match a with | ⟨0, _⟩ => rfl)

/-- The normalised second aggregate at an index. -/
theorem v54_at (x0 : (⟨S100000x64, .f32⟩ : BufTy).Contents (Elt Ideal)) (x1 : (⟨S2x1200000, .i32⟩ : BufTy).Contents (Elt Ideal))
    (x2 : (⟨S1200000, .f32⟩ : BufTy).Contents (Elt Ideal)) (x3 : (⟨S64x128, .f32⟩ : BufTy).Contents (Elt Ideal))
    (x4 : (⟨S128, .f32⟩ : BufTy).Contents (Elt Ideal)) (x5 : (⟨S64x128, .f32⟩ : BufTy).Contents (Elt Ideal))
    (n : Fin 100000) (k : Fin 128) :
    val_main_v54 (F := Ideal) x0 x1 x2 x3 x4 x5 (ix2 n k)
      = Ideal.div (val_main_v45 (F := Ideal) x0 x1 x2 x3 x4 x5 (ix2 n k)) (val_main_v51 (F := Ideal) x1 (ix1 n)) := by
  rw [val_main_v54_apply, val_main_v53_apply, val_main_v52_apply, idx5253, Ideal.hostDivf_def]

/-- The result at an index. -/
theorem v60_at (x0 : (⟨S100000x64, .f32⟩ : BufTy).Contents (Elt Ideal)) (x1 : (⟨S2x1200000, .i32⟩ : BufTy).Contents (Elt Ideal))
    (x2 : (⟨S1200000, .f32⟩ : BufTy).Contents (Elt Ideal)) (x3 : (⟨S64x128, .f32⟩ : BufTy).Contents (Elt Ideal))
    (x4 : (⟨S128, .f32⟩ : BufTy).Contents (Elt Ideal)) (x5 : (⟨S64x128, .f32⟩ : BufTy).Contents (Elt Ideal))
    (x6 : (⟨S128x64, .f32⟩ : BufTy).Contents (Elt Ideal)) (x7 : (⟨S64, .f32⟩ : BufTy).Contents (Elt Ideal))
    (x8 : (⟨S128x64, .f32⟩ : BufTy).Contents (Elt Ideal)) (n : Fin 100000) (j : Fin 64) :
    val_main_v60 (F := Ideal) x0 x1 x2 x3 x4 x5 x6 x7 x8 (ix2 n j)
      = ((∑ k : Fin 128, Ideal.div (val_main_v45 (F := Ideal) x0 x1 x2 x3 x4 x5 (ix2 n k)) (val_main_v51 (F := Ideal) x1 (ix1 n)) * x6 (ix2 k j))
          + x7 (ix1 j)) + ∑ k : Fin 128, val_main_v32 (F := Ideal) x0 x1 x2 x3 x4 x5 (ix2 n k) * x8 (ix2 k j) := by
  rw [val_main_v60_apply, val_main_v58_apply, val_main_v55_apply, val_main_v59_apply,
    val_main_v57_apply, val_main_v56_apply, idx5657]
  simp only [Ideal.addf_def, lidx55, ridx55, lidx59, ridx59, v54_at]

/-! ## The degree -/

/-- The f32 pattern `0x3F800000` (sign 0, exponent field 127, fraction 0) denotes the real number one. -/
theorem ofBits_one_f32 : Ideal.ofBits .f32 0x3F800000#32 = 1 := by
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  show Ideal.ieee 8 23 (0x3F800000#32 : BitVec 32) = 1
  unfold Ideal.ieee
  simp only [hs, he, hf]
  norm_num

/-- The degree stage opened one level: the exact accumulation of ones into zeros. -/
theorem v20_eq (x1 : (⟨S2x1200000, .i32⟩ : BufTy).Contents (Elt Ideal)) :
    val_main_v20 (F := Ideal) x1 = Ideal.hostScatterAdd scatter_S100000_S1200000x1_S1200000_n_0_0_1
      (val_main_v18 (F := Ideal)) (val_main_v19 (F := Ideal) x1) (val_main_v17 (F := Ideal)) := rfl

theorem v18_at (i : S100000.Idx) : val_main_v18 (F := Ideal) i = 0 := by
  rw [val_main_v18_apply, val_main_cst_2_apply, Ideal.ofBits_def, Ideal.ofBits_zero_f32]
theorem v17_at (j : S1200000.Idx) : val_main_v17 (F := Ideal) j = 1 := by
  rw [val_main_v17_apply, val_main_cst_1_apply, Ideal.ofBits_def, ofBits_one_f32]
theorem v21_at (i : S100000.Idx) : val_main_v21 (F := Ideal) i = 1 := by
  rw [val_main_v21_apply, val_main_cst_3_apply, Ideal.ofBits_def, ofBits_one_f32]

/-- The float degree of a row is the number of edges whose destination is that row. -/
theorem v20_eq_card (x1 : (⟨S2x1200000, .i32⟩ : BufTy).Contents (Elt Ideal)) (i : S100000.Idx) :
    val_main_v20 (F := Ideal) x1 i
      = (((Finset.univ.filter (fun j : S1200000.Idx =>
          scatter_S100000_S1200000x1_S1200000_n_0_0_1.resultIdx? j (val_main_v19 (F := Ideal) x1) = some i)).card : ℝ) : EReal) := by
  rw [v20_eq]
  unfold Ideal.hostScatterAdd
  rw [v18_at, zero_add, Finset.sum_congr rfl (fun j _ => v17_at j), Finset.sum_const, nsmul_one]
  exact (EReal.coe_coe_eq_natCast _).symm

/-- The larger of a real number and one is a real number that is at least one. -/
theorem max_coe_one (a : ℝ) : ∃ r : ℝ, 1 ≤ r ∧ max (a : EReal) 1 = (r : EReal) := by
  rcases le_total (1 : ℝ) a with h | h
  · exact ⟨a, h, max_eq_left (by rw [← EReal.coe_one]; exact EReal.coe_le_coe_iff.mpr h)⟩
  · exact ⟨1, le_refl _, by rw [max_eq_right (by rw [← EReal.coe_one]; exact EReal.coe_le_coe_iff.mpr h)]; rfl⟩

/-- The clamped degree is a real number, at least one. -/
theorem v22_real (x1 : (⟨S2x1200000, .i32⟩ : BufTy).Contents (Elt Ideal)) (i : S100000.Idx) :
    ∃ r : ℝ, 1 ≤ r ∧ val_main_v22 (F := Ideal) x1 i = (r : EReal) := by
  rw [val_main_v22_apply, Ideal.maximumf_def, v20_eq_card, v21_at]
  exact max_coe_one _

/-- The second layer recomputes the same clamped degree. -/
theorem v51_eq (x1 : (⟨S2x1200000, .i32⟩ : BufTy).Contents (Elt Ideal)) :
    val_main_v51 (F := Ideal) x1 = val_main_v22 (F := Ideal) x1 := rfl

/-! ## The two aggregation stages, opened one level -/

/-- The first raw aggregate is the exact accumulation of the weighted gathered rows into zeros. -/
theorem v16_eq (x0 : (⟨S100000x64, .f32⟩ : BufTy).Contents (Elt Ideal)) (x1 : (⟨S2x1200000, .i32⟩ : BufTy).Contents (Elt Ideal))
    (x2 : (⟨S1200000, .f32⟩ : BufTy).Contents (Elt Ideal)) :
    val_main_v16 (F := Ideal) x0 x1 x2 = Ideal.hostScatterAdd scatter_S100000x64_S1200000x1_S1200000x64_1_0_0_1
      (val_main_v14 (F := Ideal)) (val_main_v15 (F := Ideal) x1) (val_main_v13 (F := Ideal) x0 x1 x2) := rfl

/-- The second raw aggregate, likewise, of the weighted gathered rows of the hidden layer. -/
theorem v45_eq (x0 : (⟨S100000x64, .f32⟩ : BufTy).Contents (Elt Ideal)) (x1 : (⟨S2x1200000, .i32⟩ : BufTy).Contents (Elt Ideal))
    (x2 : (⟨S1200000, .f32⟩ : BufTy).Contents (Elt Ideal)) (x3 : (⟨S64x128, .f32⟩ : BufTy).Contents (Elt Ideal))
    (x4 : (⟨S128, .f32⟩ : BufTy).Contents (Elt Ideal)) (x5 : (⟨S64x128, .f32⟩ : BufTy).Contents (Elt Ideal)) :
    val_main_v45 (F := Ideal) x0 x1 x2 x3 x4 x5 = Ideal.hostScatterAdd scatter_S100000x128_S1200000x1_S1200000x128_1_0_0_1
      (val_main_v43 (F := Ideal)) (val_main_v44 (F := Ideal) x1) (val_main_v42 (F := Ideal) x0 x1 x2 x3 x4 x5) := rfl

theorem idx1112 (e : Fin 1200000) (c : Fin 64) : idx_main_v11 (idx_main_v12 (ix2 e c)) = ix1 e :=
  funext fun a => Fin.ext (by match a with | ⟨0, _⟩ => rfl)
theorem idx4041 (e : Fin 1200000) (k : Fin 128) : idx_main_v40 (idx_main_v41 (ix2 e k)) = ix1 e :=
  funext fun a => Fin.ext (by match a with | ⟨0, _⟩ => rfl)

/-- An update element of the first aggregation: the gathered source entry times the edge's weight. -/
theorem v13_at (x0 : (⟨S100000x64, .f32⟩ : BufTy).Contents (Elt Ideal)) (x1 : (⟨S2x1200000, .i32⟩ : BufTy).Contents (Elt Ideal))
    (x2 : (⟨S1200000, .f32⟩ : BufTy).Contents (Elt Ideal)) (e : Fin 1200000) (c : Fin 64) :
    val_main_v13 (F := Ideal) x0 x1 x2 (ix2 e c)
      = Host.gather gather_S100000x64_S1200000x1_S1200000x64_1_0_n_n_0_1_164 x0 (val_main_v9 (F := Ideal) x1) (ix2 e c) * x2 (ix1 e) := by
  rw [val_main_v13_apply, val_main_v12_apply, val_main_v11_apply, idx1112, Ideal.mulf_def]
  rfl

/-- An update element of the second aggregation. -/
theorem v42_at (x0 : (⟨S100000x64, .f32⟩ : BufTy).Contents (Elt Ideal)) (x1 : (⟨S2x1200000, .i32⟩ : BufTy).Contents (Elt Ideal))
    (x2 : (⟨S1200000, .f32⟩ : BufTy).Contents (Elt Ideal)) (x3 : (⟨S64x128, .f32⟩ : BufTy).Contents (Elt Ideal))
    (x4 : (⟨S128, .f32⟩ : BufTy).Contents (Elt Ideal)) (x5 : (⟨S64x128, .f32⟩ : BufTy).Contents (Elt Ideal))
    (e : Fin 1200000) (k : Fin 128) :
    val_main_v42 (F := Ideal) x0 x1 x2 x3 x4 x5 (ix2 e k)
      = Host.gather gather_S100000x128_S1200000x1_S1200000x128_1_0_n_n_0_1_1128 (val_main_v32 (F := Ideal) x0 x1 x2 x3 x4 x5)
          (val_main_v38 (F := Ideal) x1) (ix2 e k) * x2 (ix1 e) := by
  rw [val_main_v42_apply, val_main_v41_apply, val_main_v40_apply, idx4041, Ideal.mulf_def]
  rfl

theorem v14_at (i : S100000x64.Idx) : val_main_v14 (F := Ideal) i = 0 := by
  rw [val_main_v14_apply, val_main_cst_apply, Ideal.ofBits_def, Ideal.ofBits_zero_f32]
theorem v43_at (i : S100000x128.Idx) : val_main_v43 (F := Ideal) i = 0 := by
  rw [val_main_v43_apply, val_main_cst_6_apply, Ideal.ofBits_def, Ideal.ofBits_zero_f32]

/-- The destination-index stage is one and the same array in all its three uses. -/
theorem v15_eq (x1 : (⟨S2x1200000, .i32⟩ : BufTy).Contents (Elt Ideal)) :
    val_main_v15 (F := Ideal) x1 = val_main_v19 (F := Ideal) x1 := rfl
theorem v44_eq (x1 : (⟨S2x1200000, .i32⟩ : BufTy).Contents (Elt Ideal)) :
    val_main_v44 (F := Ideal) x1 = val_main_v19 (F := Ideal) x1 := rfl
theorem v48_eq (x1 : (⟨S2x1200000, .i32⟩ : BufTy).Contents (Elt Ideal)) :
    val_main_v48 (F := Ideal) x1 = val_main_v19 (F := Ideal) x1 := rfl
/-- The normalised source-index stage is the same array in both layers. -/
theorem v9_eq (x1 : (⟨S2x1200000, .i32⟩ : BufTy).Contents (Elt Ideal)) :
    val_main_v9 (F := Ideal) x1 = val_main_v38 (F := Ideal) x1 := rfl

/-! ## Every stage of a real-valued input is real-valued -/

/-- The larger of two real numbers is one of them. -/
theorem isReal_max {a b : EReal} (ha : IsReal a) (hb : IsReal b) : IsReal (max a b) := by
  rcases le_total a b with h | h
  · rw [max_eq_right h]; exact hb
  · rw [max_eq_left h]; exact ha

/-- The first raw aggregate: a finite sum of products of an input entry and a weight. -/
theorem v16_real (x0 : (⟨S100000x64, .f32⟩ : BufTy).Contents (Elt Ideal)) (x1 : (⟨S2x1200000, .i32⟩ : BufTy).Contents (Elt Ideal))
    (x2 : (⟨S1200000, .f32⟩ : BufTy).Contents (Elt Ideal))
    (hx0 : ∀ i, IsReal (x0 i)) (hx2 : ∀ i, IsReal (x2 i)) (i : S100000x64.Idx) :
    IsReal (val_main_v16 (F := Ideal) x0 x1 x2 i) := by
  rw [v16_eq]
  unfold Ideal.hostScatterAdd
  refine IsReal.add (by rw [v14_at]; exact IsReal.zero) (IsReal.sum _ _ fun j _ => ?_)
  obtain ⟨e, c, rfl⟩ : ∃ e c, j = ix2 e c := ⟨j 0, j 1, eq_ix2 j⟩
  rw [v13_at]
  exact IsReal.mul (hx0 _) (hx2 _)

/-- The clamped degree divides a real number into a real number. -/
theorem div_v22_real (x1 : (⟨S2x1200000, .i32⟩ : BufTy).Contents (Elt Ideal)) {a : EReal} (ha : IsReal a) (i : S100000.Idx) :
    IsReal (Ideal.div a (val_main_v22 (F := Ideal) x1 i)) := by
  obtain ⟨r, hr1, hr⟩ := v22_real x1 i
  rw [hr]
  exact IsReal.div_coe ha (ne_of_gt (lt_of_lt_of_le zero_lt_one hr1))

/-- The hidden layer. -/
theorem v32_real (x0 : (⟨S100000x64, .f32⟩ : BufTy).Contents (Elt Ideal)) (x1 : (⟨S2x1200000, .i32⟩ : BufTy).Contents (Elt Ideal))
    (x2 : (⟨S1200000, .f32⟩ : BufTy).Contents (Elt Ideal)) (x3 : (⟨S64x128, .f32⟩ : BufTy).Contents (Elt Ideal))
    (x4 : (⟨S128, .f32⟩ : BufTy).Contents (Elt Ideal)) (x5 : (⟨S64x128, .f32⟩ : BufTy).Contents (Elt Ideal))
    (hx0 : ∀ i, IsReal (x0 i)) (hx2 : ∀ i, IsReal (x2 i)) (hx3 : ∀ i, IsReal (x3 i)) (hx4 : ∀ i, IsReal (x4 i))
    (hx5 : ∀ i, IsReal (x5 i)) (i : S100000x128.Idx) :
    IsReal (val_main_v32 (F := Ideal) x0 x1 x2 x3 x4 x5 i) := by
  obtain ⟨n, k, rfl⟩ : ∃ n k, i = ix2 n k := ⟨i 0, i 1, eq_ix2 i⟩
  rw [v32_at]
  refine isReal_max (IsReal.add (IsReal.add (IsReal.sum _ _ fun c _ => ?_) (hx4 _)) (IsReal.sum _ _ fun c _ => ?_)) IsReal.zero
  · exact IsReal.mul (div_v22_real x1 (v16_real x0 x1 x2 hx0 hx2 _) _) (hx3 _)
  · exact IsReal.mul (hx0 _) (hx5 _)

/-- The second raw aggregate: a finite sum of products of a hidden entry and a weight. -/
theorem v45_real (x0 : (⟨S100000x64, .f32⟩ : BufTy).Contents (Elt Ideal)) (x1 : (⟨S2x1200000, .i32⟩ : BufTy).Contents (Elt Ideal))
    (x2 : (⟨S1200000, .f32⟩ : BufTy).Contents (Elt Ideal)) (x3 : (⟨S64x128, .f32⟩ : BufTy).Contents (Elt Ideal))
    (x4 : (⟨S128, .f32⟩ : BufTy).Contents (Elt Ideal)) (x5 : (⟨S64x128, .f32⟩ : BufTy).Contents (Elt Ideal))
    (hx0 : ∀ i, IsReal (x0 i)) (hx2 : ∀ i, IsReal (x2 i)) (hx3 : ∀ i, IsReal (x3 i)) (hx4 : ∀ i, IsReal (x4 i))
    (hx5 : ∀ i, IsReal (x5 i)) (i : S100000x128.Idx) :
    IsReal (val_main_v45 (F := Ideal) x0 x1 x2 x3 x4 x5 i) := by
  rw [v45_eq]
  unfold Ideal.hostScatterAdd
  refine IsReal.add (by rw [v43_at]; exact IsReal.zero) (IsReal.sum _ _ fun j _ => ?_)
  obtain ⟨e, k, rfl⟩ : ∃ e k, j = ix2 e k := ⟨j 0, j 1, eq_ix2 j⟩
  rw [v42_at]
  exact IsReal.mul (v32_real x0 x1 x2 x3 x4 x5 hx0 hx2 hx3 hx4 hx5 _) (hx2 _)

/-- The result. -/
theorem v60_real (x0 : (⟨S100000x64, .f32⟩ : BufTy).Contents (Elt Ideal)) (x1 : (⟨S2x1200000, .i32⟩ : BufTy).Contents (Elt Ideal))
    (x2 : (⟨S1200000, .f32⟩ : BufTy).Contents (Elt Ideal)) (x3 : (⟨S64x128, .f32⟩ : BufTy).Contents (Elt Ideal))
    (x4 : (⟨S128, .f32⟩ : BufTy).Contents (Elt Ideal)) (x5 : (⟨S64x128, .f32⟩ : BufTy).Contents (Elt Ideal))
    (x6 : (⟨S128x64, .f32⟩ : BufTy).Contents (Elt Ideal)) (x7 : (⟨S64, .f32⟩ : BufTy).Contents (Elt Ideal))
    (x8 : (⟨S128x64, .f32⟩ : BufTy).Contents (Elt Ideal))
    (hx0 : ∀ i, IsReal (x0 i)) (hx2 : ∀ i, IsReal (x2 i)) (hx3 : ∀ i, IsReal (x3 i)) (hx4 : ∀ i, IsReal (x4 i))
    (hx5 : ∀ i, IsReal (x5 i)) (hx6 : ∀ i, IsReal (x6 i)) (hx7 : ∀ i, IsReal (x7 i)) (hx8 : ∀ i, IsReal (x8 i))
    (i : S100000x64.Idx) :
    IsReal (val_main_v60 (F := Ideal) x0 x1 x2 x3 x4 x5 x6 x7 x8 i) := by
  obtain ⟨n, j, rfl⟩ : ∃ n j, i = ix2 n j := ⟨i 0, i 1, eq_ix2 i⟩
  rw [v60_at, v51_eq]
  refine IsReal.add (IsReal.add (IsReal.sum _ _ fun k _ => ?_) (hx7 _)) (IsReal.sum _ _ fun k _ => ?_)
  · exact IsReal.mul (div_v22_real x1 (v45_real x0 x1 x2 x3 x4 x5 hx0 hx2 hx3 hx4 hx5 _) _) (hx6 _)
  · exact IsReal.mul (v32_real x0 x1 x2 x3 x4 x5 hx0 hx2 hx3 hx4 hx5 _) (hx8 _)

end Cert.ReferenceIdeal.RefStages

end
-- ==== Proof.Degree.lean ====
/-
  The degree. The program counts, for each node, the edges whose destination is that node by adding 32-bit ones into
  zeros, reads the resulting word as a signed integer, raises it to at least one and divides one by it. The reference
  adds float ones over the same set of edges. The count is at most the number of edges, 1200000, which is below 2^31, so
  the signed reading of the word is the count itself, and the two reciprocals are the same extended real.
-/
import proofs.«117206_j90477781058261_2_alg».proof.Proof.Host0
import proofs.«117206_j90477781058261_2_alg».proof.Proof.LibScatterGather
import proofs.«117206_j90477781058261_2_alg».proof.Proof.RefStages

noncomputable section

namespace Cert.KernelIdeal.Degree

open Cert.KernelIdeal Cert.KernelIdeal.Gen
open Idealize.ShloMosaic Idealize.ShloMosaic.ValueIdx Idealize.ShloMosaic.RealEntries

/-- The number of edges whose destination is the node `i`. -/
def cnt (x1 : (⟨S2x1200000, .i32⟩ : BufTy).Contents (Elt Ideal)) (i : Cert.ReferenceIdeal.S100000.Idx) : Nat :=
  (Finset.univ.filter (fun j : Cert.ReferenceIdeal.S1200000.Idx =>
    Cert.ReferenceIdeal.scatter_S100000_S1200000x1_S1200000_n_0_0_1.resultIdx? j
      (Cert.ReferenceIdeal.Read.val_main_v19 (F := Ideal) x1) = some i)).card

/-- There are 1200000 edges, so no node has more. -/
theorem cnt_le (x1 : (⟨S2x1200000, .i32⟩ : BufTy).Contents (Elt Ideal)) (i : Cert.ReferenceIdeal.S100000.Idx) :
    cnt x1 i ≤ 1200000 := by
  have h1 : Fintype.card Cert.ReferenceIdeal.S1200000.Idx = 1200000 := by
    rw [Shape.card_idx]; decide
  exact (Finset.card_le_univ _).trans_eq h1

/-- A count of at most 1200000, written as a 32-bit word and read back signed, is the count. -/
theorem toInt_ofNat_small (k : Nat) (hk : k ≤ 1200000) : (BitVec.ofNat 32 k).toInt = (k : Int) := by
  have h1 : (BitVec.ofNat 32 k).toNat = k := by
    rw [BitVec.toNat_ofNat]; exact Nat.mod_eq_of_lt (by omega)
  rw [BitVec.toInt_eq_toNat_of_lt (by rw [h1]; omega), h1]

/-- The integer degree the program accumulates is the count, as a 32-bit word. -/
theorem scatter_at (x1 : (⟨S2x1200000, .i32⟩ : BufTy).Contents (Elt Ideal)) (i : S100000.Idx) :
    Host.scatter scatter_S100000_S1200000x1_S1200000_n_0_0_1 IntOp.addi
        (broadcastInDim S100000 ![] bcast_S_S100000 (constantI S_ 32 0#32))
        (Cert.ReferenceIdeal.Read.val_main_v19 (F := Ideal) x1)
        (broadcastInDim S1200000 ![] bcast_S_S1200000 (constantI S_ 32 1#32)) i
      = BitVec.ofNat 32 (cnt x1 i) :=
  ScatterGather.scatter_addi_one_apply' _ _ _ _ (fun _ => rfl) (fun _ => rfl) i

/-- The reference's clamped degree is the larger of the count and one. -/
theorem v22_cnt (x1 : (⟨S2x1200000, .i32⟩ : BufTy).Contents (Elt Ideal)) (i : Cert.ReferenceIdeal.S100000.Idx) :
    Cert.ReferenceIdeal.Read.val_main_v22 (F := Ideal) x1 i = max (((cnt x1 i : ℝ)) : EReal) 1 := by
  rw [Cert.ReferenceIdeal.Read.val_main_v22_apply, Ideal.maximumf_def, Cert.ReferenceIdeal.RefStages.v20_eq_card,
    Cert.ReferenceIdeal.RefStages.v21_at]
  rfl

/-- The reciprocal degree the program computes, at a node, is one over the reference's clamped degree. -/
theorem invDeg_at (x1 : (⟨S2x1200000, .i32⟩ : BufTy).Contents (Elt Ideal)) (n : Fin 100000) :
    Cert.KernelIdeal.Host0.invDeg x1 (ix2 n 0)
      = Ideal.div 1 (Cert.ReferenceIdeal.Read.val_main_v22 (F := Ideal) x1 (ix1 n)) := by
  unfold Cert.KernelIdeal.Host0.invDeg
  refine (shapeCast_apply _ _ (ix2 n 0) (ix1 n) ?_).trans ?_
  · rw [Shape.rowMajor_val_one, Shape.rowMajor_val_two]
    show n.val = n.val * 1 + 0
    omega
  · show Ideal.div (Ideal.ofBits .f32 0x3F800000#32)
        (max (((BitVec.toInt (Host.scatter scatter_S100000_S1200000x1_S1200000_n_0_0_1 IntOp.addi
          (broadcastInDim S100000 ![] bcast_S_S100000 (constantI S_ 32 0#32))
          (Cert.ReferenceIdeal.Read.val_main_v19 (F := Ideal) x1)
          (broadcastInDim S1200000 ![] bcast_S_S1200000 (constantI S_ 32 1#32)) (ix1 n)) : ℝ)) : EReal)
          (Ideal.ofBits .f32 0x3F800000#32)) = _
    rw [scatter_at, toInt_ofNat_small _ (cnt_le x1 (ix1 n)), Cert.ReferenceIdeal.RefStages.ofBits_one_f32, v22_cnt,
      Int.cast_natCast]

/-- The reference's clamped degree at a node is a real number, at least one. -/
theorem deg_real (x1 : (⟨S2x1200000, .i32⟩ : BufTy).Contents (Elt Ideal)) (n : Fin 100000) :
    ∃ r : ℝ, 1 ≤ r ∧ Cert.ReferenceIdeal.Read.val_main_v22 (F := Ideal) x1 (ix1 n) = (r : EReal) :=
  Cert.ReferenceIdeal.RefStages.v22_real x1 (ix1 n)

end Cert.KernelIdeal.Degree

end
-- ==== Proof.RefAgg.lean ====
/-
  The second aggregate of the reference at an index: zero plus the sum, over the edges whose destination is the row,
  of the hidden layer at the edge's source row times the edge's weight.
-/
import proofs.«117206_j90477781058261_2_alg».proof.Proof.RefStages
import proofs.«117206_j90477781058261_2_alg».proof.Proof.LibScatterGather

noncomputable section

namespace Cert.ReferenceIdeal.RefAgg

open Idealize.ShloMosaic Idealize.ShloMosaic.ValueIdx Idealize.ShloMosaic.ScatterGather
open Cert.ReferenceIdeal Cert.ReferenceIdeal.Gen Cert.ReferenceIdeal.Read Cert.ReferenceIdeal.RefStages

/-- The reference's 128-wide row scatter has the dimension numbers of the literal row scatter. -/
theorem scatter128_eq : scatter_S100000x128_S1200000x1_S1200000x128_1_0_0_1 = rowScatter128 := rfl
/-- The reference's 128-wide row gather has the dimension numbers of the literal row gather. -/
theorem gather128_eq : gather_S100000x128_S1200000x1_S1200000x128_1_0_n_n_0_1_1128 = rowGather128 := rfl

/-- The second raw aggregate, opened one level, with the literal row scatter and the one destination-index array. -/
theorem v45_eq' (x0 : (⟨S100000x64, .f32⟩ : BufTy).Contents (Elt Ideal)) (x1 : (⟨S2x1200000, .i32⟩ : BufTy).Contents (Elt Ideal))
    (x2 : (⟨S1200000, .f32⟩ : BufTy).Contents (Elt Ideal)) (x3 : (⟨S64x128, .f32⟩ : BufTy).Contents (Elt Ideal))
    (x4 : (⟨S128, .f32⟩ : BufTy).Contents (Elt Ideal)) (x5 : (⟨S64x128, .f32⟩ : BufTy).Contents (Elt Ideal)) :
    val_main_v45 (F := Ideal) x0 x1 x2 x3 x4 x5 = Ideal.hostScatterAdd rowScatter128
      (val_main_v43 (F := Ideal)) (val_main_v19 (F := Ideal) x1) (val_main_v42 (F := Ideal) x0 x1 x2 x3 x4 x5) := rfl

/-- An update element of the second aggregation: the hidden layer at the edge's source row, times the edge's weight. -/
theorem v42_row (x0 : (⟨S100000x64, .f32⟩ : BufTy).Contents (Elt Ideal)) (x1 : (⟨S2x1200000, .i32⟩ : BufTy).Contents (Elt Ideal))
    (x2 : (⟨S1200000, .f32⟩ : BufTy).Contents (Elt Ideal)) (x3 : (⟨S64x128, .f32⟩ : BufTy).Contents (Elt Ideal))
    (x4 : (⟨S128, .f32⟩ : BufTy).Contents (Elt Ideal)) (x5 : (⟨S64x128, .f32⟩ : BufTy).Contents (Elt Ideal))
    (e : Fin 1200000) (k : Fin 128) :
    val_main_v42 (F := Ideal) x0 x1 x2 x3 x4 x5 (ix2 e k)
      = val_main_v32 (F := Ideal) x0 x1 x2 x3 x4 x5 (ix2 (gatherRow (val_main_v38 (F := Ideal) x1) e) k) * x2 (ix1 e) := by
  rw [v42_at, gather128_eq, rowGather128_apply]

/-- The second raw aggregate at an index. -/
theorem v45_at (x0 : (⟨S100000x64, .f32⟩ : BufTy).Contents (Elt Ideal)) (x1 : (⟨S2x1200000, .i32⟩ : BufTy).Contents (Elt Ideal))
    (x2 : (⟨S1200000, .f32⟩ : BufTy).Contents (Elt Ideal)) (x3 : (⟨S64x128, .f32⟩ : BufTy).Contents (Elt Ideal))
    (x4 : (⟨S128, .f32⟩ : BufTy).Contents (Elt Ideal)) (x5 : (⟨S64x128, .f32⟩ : BufTy).Contents (Elt Ideal))
    (n : Fin 100000) (k : Fin 128) :
    val_main_v45 (F := Ideal) x0 x1 x2 x3 x4 x5 (ix2 n k)
      = 0 + ∑ e ∈ landsAt (val_main_v19 (F := Ideal) x1) n,
          val_main_v32 (F := Ideal) x0 x1 x2 x3 x4 x5 (ix2 (gatherRow (val_main_v38 (F := Ideal) x1) e) k) * x2 (ix1 e) := by
  rw [v45_eq']
  unfold Ideal.hostScatterAdd
  rw [v43_at]
  refine congrArg (fun t => (0 : EReal) + t) ?_
  refine (rowScatter128_sum (val_main_v19 (F := Ideal) x1) n k (val_main_v42 (F := Ideal) x0 x1 x2 x3 x4 x5) (hd := _)).trans ?_
  exact Finset.sum_congr rfl fun e _ => v42_row x0 x1 x2 x3 x4 x5 e k

end Cert.ReferenceIdeal.RefAgg

end
-- ==== Proof.KernelAgg.lean ====
/-
  The raw second-layer aggregate, read at one element. The program gathers the rows of the projected hidden features
  along the edges' sources (each source clamped into range), widens them, weights row `e` by the weight of edge `e`,
  and accumulates the rows into zeros at the edges' destinations (an edge whose destination is out of range is
  dropped). At element `(n, j)` that is the sum, over the edges `e` whose destination is `n`, of entry `j` of the
  source row of `e` times the weight of `e`.
-/
import proofs.«117206_j90477781058261_2_alg».proof.Proof.Host1
import proofs.«117206_j90477781058261_2_alg».proof.Proof.LibScatterGather
import proofs.«117206_j90477781058261_2_alg».proof.Proof.RefStages

noncomputable section

namespace Cert.KernelIdeal.KernelAgg

open Idealize.ShloMosaic Idealize.ShloMosaic.ValueIdx Idealize.ShloMosaic.ScatterGather
open Cert.KernelIdeal Cert.KernelIdeal.Gen
open Idealize.ShloMosaic.TcCoe Idealize.SL.Sem Idealize.ShloMosaic.StableHlo
open Cert.ReferenceIdeal.Read Cert.ReferenceIdeal.RefStages

/-- The generated scatter record is the row scatter's. -/
theorem scatter_eq : scatter_S100000x64_S1200000x1_S1200000x64_1_0_0_1 = rowScatter64 := rfl
/-- The generated gather record is the row gather's. -/
theorem gather_eq : gather_S100000x64_S1200000x1_S1200000x64_1_0_n_n_0_1_164 = rowGather64 := rfl

/-- The aggregate opened one level: the exact accumulation of the weighted gathered rows into zeros. -/
theorem aggTwo_eq (P : (⟨S100000x64, .bf16⟩ : BufTy).Contents (Elt Ideal))
    (x1 : (⟨S2x1200000, .i32⟩ : BufTy).Contents (Elt Ideal)) (x2 : (⟨S1200000, .f32⟩ : BufTy).Contents (Elt Ideal)) :
    Host1.aggTwo P x1 x2 = Ideal.hostScatterAdd scatter_S100000x64_S1200000x1_S1200000x64_1_0_0_1
      (val_main_v14 (F := Ideal)) (val_main_v15 (F := Ideal) x1)
      (mulf (F := Ideal) (extf (F := Ideal) .f32 (Host.gather gather_S100000x64_S1200000x1_S1200000x64_1_0_n_n_0_1_164 P
          (val_main_v9 (F := Ideal) x1)) bitsLt_bf16_f32)
        (val_main_v12 (F := Ideal) x2)) := rfl

/-- The raw second-layer aggregate at `(n, j)`: over the edges whose destination is `n`, entry `j` of the projected
    hidden row at the edge's (clamped) source, times the edge's weight; added to the zero it accumulates into. -/
theorem aggTwo_at (P : (⟨S100000x64, .bf16⟩ : BufTy).Contents (Elt Ideal))
    (x1 : (⟨S2x1200000, .i32⟩ : BufTy).Contents (Elt Ideal)) (x2 : (⟨S1200000, .f32⟩ : BufTy).Contents (Elt Ideal))
    (n : Fin 100000) (j : Fin 64) :
    Host1.aggTwo P x1 x2 (ix2 n j)
      = 0 + ∑ e ∈ landsAt (val_main_v19 (F := Ideal) x1) n,
          P (ix2 (gatherRow (val_main_v38 (F := Ideal) x1) e) j) * x2 (ix1 e) := by
  rw [aggTwo_eq]
  unfold Ideal.hostScatterAdd
  rw [v14_at, v15_eq, v9_eq]
  refine congrArg (fun t : EReal => 0 + t) ?_
  rw [scatter_eq, gather_eq]
  rw [rowScatter64_sum]
  refine Finset.sum_congr rfl (fun e _ => ?_)
  rw [mulf_apply, extf_apply, rowGather64_apply, val_main_v12_apply, val_main_v11_apply, idx1112]

end Cert.KernelIdeal.KernelAgg

end
-- ==== Proof.SageAlgebra.lean ====
/-
  Two laws of the extended reals behind a mean-aggregation layer.
  (A) Scaling a sum's terms by the reciprocal of a nonzero real is dividing them by it, and a bias may be added before
      or after a second sum: addition of extended reals is commutative and associative.
  (B) When every entry is a real number, projecting by a weight vector commutes with a weighted sum over edges and with
      the division by a nonzero real: both sides are the same finite double sum of real products.
-/
import proofs.«117206_j90477781058261_2_alg».proof.Proof.LibReal
import Idealize.ShloMosaic.PureOps.Ideal
import Mathlib.Algebra.BigOperators.Ring.Finset
import Mathlib.Tactic.Ring

noncomputable section

namespace Cert.Sage.Algebra

open Idealize.ShloMosaic Idealize.ShloMosaic.RealEntries

/-- The quotient of one by a nonzero real is that real's reciprocal. -/
theorem div_one_coe {r : ℝ} (hr : r ≠ 0) : Ideal.div 1 (r : EReal) = ((1 / r : ℝ) : EReal) := by
  rw [Ideal.div_coe hr, one_mul]

/-- The inclusion of the reals into the extended reals carries a finite sum to the finite sum. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- (A) Terms scaled by the reciprocal of r are terms divided by r, and the bias moves across the second sum. -/
theorem hidden_forms {ι : Type} [Fintype ι] (a x : ι → EReal) (Wl Wr : ι → EReal) (b : EReal) (r : ℝ) (hr : r ≠ 0) :
    max (((∑ c, (a c * Ideal.div 1 (r : EReal)) * Wl c) + ∑ c, x c * Wr c) + b) 0
      = max (((∑ c, Ideal.div (a c) (r : EReal) * Wl c) + b) + ∑ c, x c * Wr c) 0 := by
  simp only [div_one_coe hr, Ideal.div_coe hr]
  rw [add_right_comm]

/-- The real identity under (B): a double sum of products, summed in either order. -/
theorem agg_linear_real {ι κ : Type} [Fintype κ] (L : Finset ι) (h : ι → κ → ℝ) (w : ι → ℝ) (W : κ → ℝ) (q : ℝ) :
    (∑ e ∈ L, (∑ k, h e k * W k) * w e) * q = ∑ k, ((∑ e ∈ L, h e k * w e) * q) * W k := by
  simp only [Finset.sum_mul]
  rw [Finset.sum_comm]
  refine Finset.sum_congr rfl fun k _ => Finset.sum_congr rfl fun e _ => ?_
  ring

/-- (B) With real entries, the projection by W commutes with the weighted sum over the edges of L and the division by r. -/
theorem agg_linear {ι κ : Type} [Fintype κ] (L : Finset ι) (h : ι → κ → EReal) (w : ι → EReal) (W : κ → EReal) (r : ℝ) (hr : r ≠ 0)
    (hh : ∀ e k, IsReal (h e k)) (hw : ∀ e, IsReal (w e)) (hW : ∀ k, IsReal (W k)) :
    (0 + ∑ e ∈ L, (∑ k, h e k * W k) * w e) * Ideal.div 1 (r : EReal)
      = ∑ k, Ideal.div (0 + ∑ e ∈ L, h e k * w e) (r : EReal) * W k := by
  choose h' hh' using hh
  choose w' hw' using hw
  choose W' hW' using hW
  simp only [hh', hw', hW', zero_add, div_one_coe hr, Ideal.div_coe hr, ← EReal.coe_mul, ← coe_sum]
  exact congrArg _ (agg_linear_real L h' w' W' (1 / r))

/-- The larger of two real numbers is a real number. -/
theorem isReal_max {a b : EReal} (ha : IsReal a) (hb : IsReal b) : IsReal (max a b) := by
  rcases le_total a b with hab | hab
  · rw [max_eq_right hab]; exact hb
  · rw [max_eq_left hab]; exact ha

/-- Three summands, reordered. -/
theorem add_rearrange (s p b : EReal) : (s + p) + b = (p + b) + s := by
  rw [add_comm s p, add_right_comm]

end Cert.Sage.Algebra

end
-- ==== Proof.Bridge.lean ====
/-
  The kernel's result and the reference's are one function of the arguments, when every float argument is finite.

  Layer 1. The kernel scales the raw aggregate by the reciprocal 1/d of the degree d (a real number, at least 1: the number
  of edges into the node, or 1 when there is none) where the reference divides by d, and adds the bias after the root
  term where the reference adds it before; on the extended reals a quotient by a nonzero real is the product with its
  reciprocal, and addition is commutative and associative, so the hidden features agree — whether or not anything is finite.

  Layer 2. The kernel projects every node's hidden row through the neighbour weights first, gathers the projected rows
  along the edges, weights and sums them, and scales by 1/d; the reference gathers the hidden rows, weights and sums them,
  divides by d and projects last. Both are the double sum over the edges into the node and over the 128 hidden positions
  of (hidden entry · weight matrix entry · edge weight) / d; exchanging the two sums and moving the factors is
  distributivity, which holds because every term is a real number: the hidden features are sums, products and maxima of
  finite inputs. The two programs gather the same rows (the source index clamped into range) and drop the same edges (a
  destination outside the node range), so the edge sets are literally the same.
-/
import proofs.«117206_j90477781058261_2_alg».proof.Proof.KernelValue
import proofs.«117206_j90477781058261_2_alg».proof.Proof.Degree
import proofs.«117206_j90477781058261_2_alg».proof.Proof.RefStages
import proofs.«117206_j90477781058261_2_alg».proof.Proof.RefAgg
import proofs.«117206_j90477781058261_2_alg».proof.Proof.KernelAgg
import proofs.«117206_j90477781058261_2_alg».proof.Proof.SageAlgebra
import Idealize.ShloMosaic.Lib.ValueLayout

set_option maxRecDepth 16384

noncomputable section

namespace Cert.Bridge

open Cert.KernelIdeal Cert.Sage Cert.ReferenceIdeal.Read
open Idealize.ShloMosaic Idealize.ShloMosaic.ValueIdx Idealize.ShloMosaic.RealEntries Idealize.ShloMosaic.ScatterGather

variable (x0 : (⟨S100000x64, .f32⟩ : BufTy).Contents (Elt Ideal)) (x1 : (⟨S2x1200000, .i32⟩ : BufTy).Contents (Elt Ideal))
  (x2 : (⟨S1200000, .f32⟩ : BufTy).Contents (Elt Ideal)) (x3 : (⟨S64x128, .f32⟩ : BufTy).Contents (Elt Ideal))
  (x4 : (⟨S128, .f32⟩ : BufTy).Contents (Elt Ideal)) (x5 : (⟨S64x128, .f32⟩ : BufTy).Contents (Elt Ideal))
  (x6 : (⟨S128x64, .f32⟩ : BufTy).Contents (Elt Ideal)) (x7 : (⟨S64, .f32⟩ : BufTy).Contents (Elt Ideal))
  (x8 : (⟨S128x64, .f32⟩ : BufTy).Contents (Elt Ideal))

/-- LAYER 1: the kernel's hidden features are the reference's. -/
theorem hid_eq (n : Fin 100000) (k : Fin 128) :
    KernelValue.hid x0 x1 x2 x3 x4 x5 (ix2 n k) = val_main_v32 (F := Ideal) x0 x1 x2 x3 x4 x5 (ix2 n k) := by
  obtain ⟨r, hr1, hr⟩ := Degree.deg_real x1 n
  have hr0 : r ≠ 0 := ne_of_gt (lt_of_lt_of_le one_pos hr1)
  rw [Cert.ReferenceIdeal.RefStages.v32_at, hr]
  show hiddenRow (fun cc => val_main_v16 (F := Ideal) x0 x1 x2 (ix2 n cc)) (Host0.invDeg x1 (ix2 n (0 : Fin 1)))
      (fun cc => x0 (ix2 n cc)) x3 x5 (shapeCast S1x128 x4 _) k = _
  unfold hiddenRow
  dsimp only
  rw [Degree.invDeg_at, hr, shapeCast_a_1a_apply]
  exact Algebra.hidden_forms (fun c => val_main_v16 (F := Ideal) x0 x1 x2 (ix2 n c)) (fun c => x0 (ix2 n c))
    (fun c => x3 (ix2 c k)) (fun c => x5 (ix2 c k)) (x4 (ix1 k)) r hr0

/-- The projected hidden row of node `row`, entry `j`, over the reference's hidden features. -/
theorem prj_at (row : Fin 100000) (j : Fin 64) :
    KernelValue.prj x0 x1 x2 x3 x4 x5 x6 (ix2 row j)
      = ∑ k : Fin 128, val_main_v32 (F := Ideal) x0 x1 x2 x3 x4 x5 (ix2 row k) * x6 (ix2 k j) := by
  show projRow (fun k => KernelValue.hid x0 x1 x2 x3 x4 x5 (ix2 row k)) x6 j = _
  unfold projRow
  exact Finset.sum_congr rfl fun k _ => by
    show KernelValue.hid x0 x1 x2 x3 x4 x5 (ix2 row k) * _ = _
    rw [hid_eq]

/-- THE TWO RESULTS ARE ONE FUNCTION of finite arguments. -/
theorem res_eq (h0 : ∀ i, IsReal (x0 i)) (h2 : ∀ i, IsReal (x2 i)) (h3 : ∀ i, IsReal (x3 i)) (h4 : ∀ i, IsReal (x4 i))
    (h5 : ∀ i, IsReal (x5 i)) (h6 : ∀ i, IsReal (x6 i)) :
    KernelValue.res x0 x1 x2 x3 x4 x5 x6 x7 x8 = val_main_v60 (F := Ideal) x0 x1 x2 x3 x4 x5 x6 x7 x8 := by
  funext i
  obtain ⟨n, j, rfl⟩ : ∃ (n : Fin 100000) (j : Fin 64), i = ix2 n j := ⟨i 0, i 1, eq_ix2 i⟩
  obtain ⟨r, hr1, hr⟩ := Degree.deg_real x1 n
  have hr0 : r ≠ 0 := ne_of_gt (lt_of_lt_of_le one_pos hr1)
  rw [Cert.ReferenceIdeal.RefStages.v60_at, Cert.ReferenceIdeal.RefStages.v51_eq, hr]
  show outRow (fun k => KernelValue.hid x0 x1 x2 x3 x4 x5 (ix2 n k)) x8
      (Host1.aggTwo (KernelValue.prj x0 x1 x2 x3 x4 x5 x6) x1 x2 (ix2 n j)) (Host0.invDeg x1 (ix2 n (0 : Fin 1)))
      (shapeCast S1x64 x7 _) j = _
  unfold outRow projRow
  dsimp only
  rw [KernelAgg.aggTwo_at, Degree.invDeg_at, hr, shapeCast_a_1a_apply]
  simp only [hid_eq, prj_at, Cert.ReferenceIdeal.RefAgg.v45_at]
  rw [← Algebra.agg_linear (landsAt (val_main_v19 (F := Ideal) x1) n)
    (fun e k => val_main_v32 (F := Ideal) x0 x1 x2 x3 x4 x5 (ix2 (gatherRow (val_main_v38 (F := Ideal) x1) e) k))
    (fun e => x2 (ix1 e)) (fun k => x6 (ix2 k j)) r hr0
    (fun e k => Cert.ReferenceIdeal.RefStages.v32_real x0 x1 x2 x3 x4 x5 h0 h2 h3 h4 h5 _) (fun e => h2 _) (fun k => h6 _)]
  exact Algebra.add_rearrange _ _ _

end Cert.Bridge

end
-- ==== Proof.FiniteInputs.lean ====
/-
  From the precondition to the finiteness of the inputs. The precondition is the conjunction of eight tests, one per float
  argument, each of the form "every entry of |a| lies below +infinity". At the ideal instance an entry is an extended real,
  |a| is max a (-a), and the pattern 0x7F800000 denotes +infinity; so each test says every entry of its array is a real number.
-/
import proofs.«117206_j90477781058261_2_alg».proof.Defs
import Idealize.ShloMosaic.Lib.ReduceAll
import Idealize.ShloMosaic.Lib.ValueIdx
import proofs.«117206_j90477781058261_2_alg».proof.Proof.LibReal

noncomputable section

namespace Cert.FiniteInputs

open Idealize.ShloMosaic Idealize.ShloMosaic.ValueIdx Idealize.ShloMosaic.RealEntries

/-- The shape of a scalar has one index. -/
instance : Subsingleton (⟨0, ![]⟩ : Shape).Idx := ⟨fun a b => funext fun d => d.elim0⟩

/-- The f32 pattern 0x7F800000 is +infinity. -/
theorem ofBits_inf : Ideal.ofBits .f32 0x7F800000#32 = (⊤ : EReal) := by
  simp [Ideal.ofBits, Ideal.ieee]

/-- A one-bit word made from a Boolean is 1 exactly when the Boolean is true. -/
theorem ofBool_eq_one {b : Bool} : BitVec.ofBool b = 1#1 ↔ b = true := by cases b <;> decide

/-- One test of the precondition: if the conjunction over all entries of "|a| < +infinity" holds, every entry of a is real. -/
theorem real_of_test {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (a : FVec Ideal s .f32)
    (h : Host.reduce IntOp.andi
          (cmpf .olt (Host.absf a) (broadcastInDim s ![] hb (constant (F := Ideal) (⟨0, ![]⟩ : Shape) .f32 0x7F800000#32)))
          (constantI (⟨0, ![]⟩ : Shape) 1 1#1) hr hu ix0 = 1#1) :
    ∀ i, IsReal (a i) := by
  intro i
  have e := Host.reduce_andi_all _ _ hr hu ix0 h i
  apply isReal_of_abs_lt_top
  have e' : Ideal.cmp .olt (max (a i) (-(a i))) (Ideal.ofBits .f32 0x7F800000#32) = 1#1 := e
  rw [ofBits_inf] at e'
  exact of_decide_eq_true (ofBool_eq_one.1 e')

section
open Cert.Pre_finite_inputs

/-- The precondition, all ones, makes every entry of every float argument a real number. -/
theorem real_of_pre [Cert.Pre_finite_inputs.Facts]
    (a0 : FVec Ideal S100000x64 .f32) (a1 : IVec S2x1200000 32) (a2 : FVec Ideal S1200000 .f32)
    (a3 : FVec Ideal S64x128 .f32) (a4 : FVec Ideal S128 .f32) (a5 : FVec Ideal S64x128 .f32)
    (a6 : FVec Ideal S128x64 .f32) (a7 : FVec Ideal S64 .f32) (a8 : FVec Ideal S128x64 .f32)
    (h : Cert.Pre_finite_inputs.fn (F := Ideal) a0 a1 a2 a3 a4 a5 a6 a7 a8 = (fun _ => 1#1)) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) := by
  have h0 := congrFun h ix0
  dsimp only [Cert.Pre_finite_inputs.fn, Cert.Pre_finite_inputs.fn_part1, Cert.Pre_finite_inputs.fn_part2,
    Idealize.ShloMosaic.andi] at h0
  obtain ⟨h33, t8⟩ := IntOp.andi_eq_one.1 h0
  obtain ⟨h28, t7⟩ := IntOp.andi_eq_one.1 h33
  obtain ⟨h23, t6⟩ := IntOp.andi_eq_one.1 h28
  obtain ⟨h18, t5⟩ := IntOp.andi_eq_one.1 h23
  obtain ⟨h13, t4⟩ := IntOp.andi_eq_one.1 h18
  obtain ⟨h8, t3⟩ := IntOp.andi_eq_one.1 h13
  obtain ⟨t0, t2⟩ := IntOp.andi_eq_one.1 h8
  exact ⟨real_of_test _ _ _ a0 t0, real_of_test _ _ _ a2 t2, real_of_test _ _ _ a3 t3, real_of_test _ _ _ a4 t4,
    real_of_test _ _ _ a5 t5, real_of_test _ _ _ a6 t6, real_of_test _ _ _ a7 t7, real_of_test _ _ _ a8 t8⟩

end

end Cert.FiniteInputs

end
-- ==== Proof.lean ====
/-
  A two-layer GraphSAGE forward pass over 100000 nodes and 1200000 weighted edges: a program with two pallas kernels
  (one per layer, each over twenty blocks of 5000 nodes) and host gathers and scatter-adds around them, against a plain
  reference. At the ideal instance (floats are extended reals, operations exact, format changes the identity) the two
  compute one function of finite arguments:

  * both gather the same source rows (index clamped into range) and add into the same destination rows (an edge whose
    destination is out of range is dropped), so the raw layer-1 aggregate is literally the same term in both;
  * the kernel counts the degree in 32-bit integers (at most 1200000 < 2^31, so the signed word is the count) where the
    reference sums float ones, and multiplies by the reciprocal of max(degree, 1) where the reference divides: the same
    real number, at least 1;
  * sums of three terms are associated differently: addition on the extended reals is commutative and associative;
  * in layer 2 the kernel projects the hidden rows through the neighbour weights BEFORE gathering them along the edges,
    the reference after aggregating: projection is linear, and distributivity holds because every term is a real number
    (this is where finiteness of the inputs is used).

  The modules: SageRows (a layer's row), Payloads (the kernel bodies at an index), Blocks0 / Blocks1 (each region's
  output arrays from its twenty blocks), Host0 / Host1 (what each region finds), KRun (the program's run with its result
  named), KernelValue (the result as one function), RefStages / RefAgg / KernelAgg / Degree (the stages at an index),
  LibScatterGather / LibReal / SageAlgebra / FiniteInputs (general lemmas), Bridge (the two functions are one).
  The three frames are the generated ones (the reference's is its generated run with the result dropped); the kernel's
  idealization rewrote nothing, so `preserves` is `True`.
-/
import proofs.«117206_j90477781058261_2_alg».proof.Defs
import proofs.«117206_j90477781058261_2_alg».proof.Proof.Gen.Kernel
import proofs.«117206_j90477781058261_2_alg».proof.Proof.Gen.Kernel.Skeleton
import proofs.«117206_j90477781058261_2_alg».proof.Proof.Gen.Kernel.Launch
import proofs.«117206_j90477781058261_2_alg».proof.Proof.Gen.Kernel.Points
import proofs.«117206_j90477781058261_2_alg».proof.Proof.Gen.Kernel.Frame
import proofs.«117206_j90477781058261_2_alg».proof.Proof.Gen.KernelIdeal
import proofs.«117206_j90477781058261_2_alg».proof.Proof.Gen.KernelIdeal.Skeleton
import proofs.«117206_j90477781058261_2_alg».proof.Proof.Gen.KernelIdeal.Launch
import proofs.«117206_j90477781058261_2_alg».proof.Proof.Gen.KernelIdeal.Points
import proofs.«117206_j90477781058261_2_alg».proof.Proof.Gen.KernelIdeal.Frame
import proofs.«117206_j90477781058261_2_alg».proof.Proof.Gen.ReferenceIdeal
import proofs.«117206_j90477781058261_2_alg».proof.Proof.Gen.Pre_finite_inputs
import proofs.«117206_j90477781058261_2_alg».proof.Proof.Gen.ReferenceIdeal.Run
import proofs.«117206_j90477781058261_2_alg».proof.Proof.Gen.ReferenceIdeal.Read
import proofs.«117206_j90477781058261_2_alg».proof.Proof.KRun
import proofs.«117206_j90477781058261_2_alg».proof.Proof.Bridge
import proofs.«117206_j90477781058261_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its arguments as launched: the generated frame. -/
theorem frame_k : Cert.frame_Kernel := fun m ρ _ => Cert.Kernel.Gen.frame m ρ

/-- So does its reading at the ideal instance. -/
theorem frame_ki : Cert.frame_KernelIdeal := fun m ρ _ => Cert.KernelIdeal.Gen.frame m ρ

/-- The reference runs and leaves its arguments as launched: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on finite arguments the two programs end with one result: the kernel program's result
    buffer holds `KernelValue.res` of the arguments, the reference's its last stage, and the two are one function. -/
theorem algebraic : Cert.algebraic_KernelIdeal_ReferenceIdeal := by
  intro m ρ m' ρ' hpre hagree
  refine ⟨fun c => Cert.KernelIdeal.KernelValue.res
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.KernelValue.result_eq m ρ c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨r0, r2, r3, r4, r5, r6, r7, r8⟩ := Cert.FiniteInputs.real_of_pre _ _ _ _ _ _ _ _ _ (hpre c)
    obtain ⟨g0, g1, g2, g3, g4, g5, g6, g7, g8⟩ := hagree c
    rw [Cert.ReferenceIdeal.Read.val_main_v60_eq, g0, g1, g2, g3, g4, g5, g6, g7, g8]
    exact (Cert.Bridge.res_eq _ _ _ _ _ _ _ _ _ r0 r2 r3 r4 r5 r6).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
